-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x7x7x30 : Shape := ⟨4, ![32768, 7, 7, 30]⟩
abbrev S_ : Shape := ⟨0, ![]⟩

class Facts : Prop where
  bcast_S_S32768x7x7x30 : S_.BroadcastsInDim S32768x7x7x30 (![] : Fin 0 → Fin S32768x7x7x30.rank)
  reducesTo_S32768x7x7x30_S_d0_1_2_3 : S32768x7x7x30.ReducesTo [0, 1, 2, 3] S_
  h_S_ : 0 < S_.numel

variable [Facts]

def fn {F : FTy → Type} [FloatOps F] (main_arg0 : FVec F S32768x7x7x30 .f32) (main_arg1 : FVec F S32768x7x7x30 .f32) : IVec S_ 1 :=
  let main_v0 : FVec F S32768x7x7x30 .f32 := Host.absf main_arg0
  let main_cst : FVec F S_ .f32 := constant S_ .f32 0x7F800000#32
  let main_v1 : FVec F S32768x7x7x30 .f32 := broadcastInDim S32768x7x7x30 ![] bcast_S_S32768x7x7x30 main_cst
  let main_v2 : IVec S32768x7x7x30 1 := cmpf .olt main_v0 main_v1
  let main_c : IVec S_ 1 := constantI S_ 1 1#1
  let main_v3 : IVec S_ 1 := (fun x v => Host.reduce IntOp.andi x v reducesTo_S32768x7x7x30_S_d0_1_2_3 h_S_) main_v2 main_c
  let main_v4 : FVec F S32768x7x7x30 .f32 := Host.absf main_arg1
  let main_cst_0 : FVec F S_ .f32 := constant S_ .f32 0x7F800000#32
  let main_v5 : FVec F S32768x7x7x30 .f32 := broadcastInDim S32768x7x7x30 ![] bcast_S_S32768x7x7x30 main_cst_0
  let main_v6 : IVec S32768x7x7x30 1 := cmpf .olt main_v4 main_v5
  let main_c_1 : IVec S_ 1 := constantI S_ 1 1#1
  let main_v7 : IVec S_ 1 := (fun x v => Host.reduce IntOp.andi x v reducesTo_S32768x7x7x30_S_d0_1_2_3 h_S_) main_v6 main_c_1
  let main_v8 : IVec S_ 1 := andi main_v3 main_v7
  main_v8
-- ==== Kernel.lean ====
abbrev S32768x7x7x30 : Shape := ⟨4, ![32768, 7, 7, 30]⟩
abbrev S1x1 : Shape := ⟨2, ![1, 1]⟩
abbrev S128x7x7x30 : Shape := ⟨4, ![128, 7, 7, 30]⟩
abbrev S16x7x7x30 : Shape := ⟨4, ![16, 7, 7, 30]⟩
abbrev S16x7x7x1 : Shape := ⟨4, ![16, 7, 7, 1]⟩
abbrev S16x7x7 : Shape := ⟨3, ![16, 7, 7]⟩
abbrev S16x7x7x4 : Shape := ⟨4, ![16, 7, 7, 4]⟩
abbrev S16x7x7x2 : Shape := ⟨4, ![16, 7, 7, 2]⟩
abbrev S16x7x7x20 : Shape := ⟨4, ![16, 7, 7, 20]⟩
abbrev S16x7 : Shape := ⟨2, ![16, 7]⟩
abbrev S16x7x1 : Shape := ⟨3, ![16, 7, 1]⟩
abbrev S16x1 : Shape := ⟨2, ![16, 1]⟩
abbrev S16x1x1 : Shape := ⟨3, ![16, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S32768x7x7x30, .f32⟩
  | .hbm, ⟨1, _⟩ => ⟨S32768x7x7x30, .f32⟩
  | .hbm, ⟨2, _⟩ => ⟨S1x1, .f32⟩
  | .hbm, ⟨3, _⟩ => ⟨S_, .f32⟩
  | .local _ .vmem, ⟨0, _⟩ => ⟨S128x7x7x30, .f32⟩
  | .local _ .vmem, ⟨1, _⟩ => ⟨S128x7x7x30, .f32⟩
  | .local _ .vmem, ⟨2, _⟩ => ⟨S128x7x7x30, .f32⟩
  | .local _ .vmem, ⟨3, _⟩ => ⟨S128x7x7x30, .f32⟩
  | .local _ .vmem, ⟨4, _⟩ => ⟨S1x1, .f32⟩
  | .local _ .vmem, ⟨5, _⟩ => ⟨S1x1, .f32⟩
  | _, _ => ⟨S32768x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c16_i32 : BitVec 32 := 16#32
  let v14 : BitVec 32 := Scalar.muli arg5 c16_i32
  v14
def k0_off1 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let c16_i32 : BitVec 32 := 16#32
  let v14 : BitVec 32 := Scalar.muli arg5 c16_i32
  let v15 : BitVec 32 := v14
  let v16 : Index := Scalar.indexCast v15
  let c0_7 : Index := 0#32
  let c0_8 : Index := 0#32
  let c0_9 : Index := 0#32
  ![v16.toNat, 0, 0, 0]
def k0_cond2 (i : grid0.Coords) : BitVec 1 :=
  let arg0 : BitVec 32 := BitVec.ofNat 32 (i 0).val
  let c255_i32 : BitVec 32 := 255#32
  let v11 : BitVec 1 := Scalar.cmpi .eq arg0 c255_i32
  let v12 : BitVec 32 := Scalar.extui v11
  let c0_i32_6 : BitVec 32 := 0#32
  let v13 : BitVec 1 := Scalar.cmpi .ne v12 c0_i32_6
  v13

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S16x7x7x30 : 0 < S16x7x7x30.numel
  slices_S16x7x7x30_o0_0_0_0_S16x7x7x1 : S16x7x7x30.Slices ![0, 0, 0, 0] S16x7x7x1
  shapeCasts_S16x7x7x1_S16x7x7 : S16x7x7x1.ShapeCasts S16x7x7
  slices_S16x7x7x30_o0_0_0_1_S16x7x7x4 : S16x7x7x30.Slices ![0, 0, 0, 1] S16x7x7x4
  slices_S16x7x7x4_o0_0_0_0_S16x7x7x1 : S16x7x7x4.Slices ![0, 0, 0, 0] S16x7x7x1
  slices_S16x7x7x4_o0_0_0_2_S16x7x7x1 : S16x7x7x4.Slices ![0, 0, 0, 2] S16x7x7x1
  slices_S16x7x7x4_o0_0_0_1_S16x7x7x1 : S16x7x7x4.Slices ![0, 0, 0, 1] S16x7x7x1
  slices_S16x7x7x4_o0_0_0_3_S16x7x7x1 : S16x7x7x4.Slices ![0, 0, 0, 3] S16x7x7x1
  slices_S16x7x7x30_o0_0_0_6_S16x7x7x4 : S16x7x7x30.Slices ![0, 0, 0, 6] S16x7x7x4
  slices_S16x7x7x4_o0_0_0_0_S16x7x7x2 : S16x7x7x4.Slices ![0, 0, 0, 0] S16x7x7x2
  reduces_S16x7x7x2_S16x7x7 : S16x7x7x2.Reduces [3] S16x7x7
  slices_S16x7x7x4_o0_0_0_2_S16x7x7x2 : S16x7x7x4.Slices ![0, 0, 0, 2] S16x7x7x2
  slices_S16x7x7x30_o0_0_0_5_S16x7x7x1 : S16x7x7x30.Slices ![0, 0, 0, 5] S16x7x7x1
  slices_S16x7x7x30_o0_0_0_10_S16x7x7x20 : S16x7x7x30.Slices ![0, 0, 0, 10] S16x7x7x20
  reduces_S16x7x7x20_S16x7x7 : S16x7x7x20.Reduces [3] S16x7x7
  natLt_1_32 : 1 < 32
  reduces_S16x7x7_S16x7 : S16x7x7.Reduces [2] S16x7
  shapeCasts_S16x7_S16x7x1 : S16x7.ShapeCasts S16x7x1
  reduces_S16x7x1_S16x1 : S16x7x1.Reduces [1] S16x1
  shapeCasts_S16x1_S16x1x1 : S16x1.ShapeCasts S16x1x1
  reduces_S16x1x1_S1x1 : S16x1x1.Reduces [0] S1x1
  shapeCasts_S1x1_S_ : S1x1.ShapeCasts S_
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x7x7x30.size a ≤ S128x7x7x30.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7x7x30.size a ≤ S32768x7x7x30.size a
  hwx0_0 : ∀ i : grid0.Coords, EltTy.bits .f32 = 32 ∨ (Rect.block (s := S32768x7x7x30) S128x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7x7x30.size a ≤ S32768x7x7x30.size a
  hwx0_1 : ∀ i : grid0.Coords, EltTy.bits .f32 = 32 ∨ (Rect.block (s := S32768x7x7x30) S128x7x7x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x7x7x30 : Shape := ⟨4, ![32768, 7, 7, 30]⟩
abbrev S32768x7x7x1 : Shape := ⟨4, ![32768, 7, 7, 1]⟩
abbrev S32768x7x7 : Shape := ⟨3, ![32768, 7, 7]⟩
abbrev S_ : Shape := ⟨0, ![]⟩
abbrev S32768x7x7x4 : Shape := ⟨4, ![32768, 7, 7, 4]⟩
abbrev S32768x7x7x2 : Shape := ⟨4, ![32768, 7, 7, 2]⟩
abbrev S32768x7x7x20 : Shape := ⟨4, ![32768, 7, 7, 20]⟩

abbrev nBuf : Space → Nat
  | .hbm => 286
  | .vmem => 0
  | .smem => 0
  | _ => 0

abbrev hbmTy0_0 (i : Nat) : BufTy := match i % 128 with
  | 0 => ⟨S32768x7x7x30, .f32⟩
  | 1 => ⟨S32768x7x7x30, .f32⟩
  | 2 => ⟨S32768x7x7x1, .f32⟩
  | 3 => ⟨S32768x7x7, .f32⟩
  | 4 => ⟨S_, .f32⟩
  | 5 => ⟨S32768x7x7, .f32⟩
  | 6 => ⟨S32768x7x7, .i1⟩
  | 7 => ⟨S32768x7x7x4, .f32⟩
  | 8 => ⟨S32768x7x7x4, .f32⟩
  | 9 => ⟨S32768x7x7x1, .f32⟩
  | 10 => ⟨S32768x7x7, .f32⟩
  | 11 => ⟨S32768x7x7x1, .f32⟩
  | 12 => ⟨S32768x7x7, .f32⟩
  | 13 => ⟨S_, .f32⟩
  | 14 => ⟨S32768x7x7, .f32⟩
  | 15 => ⟨S32768x7x7, .f32⟩
  | 16 => ⟨S32768x7x7, .f32⟩
  | 17 => ⟨S32768x7x7x1, .f32⟩
  | 18 => ⟨S32768x7x7, .f32⟩
  | 19 => ⟨S32768x7x7x1, .f32⟩
  | 20 => ⟨S32768x7x7, .f32⟩
  | 21 => ⟨S_, .f32⟩
  | 22 => ⟨S32768x7x7, .f32⟩
  | 23 => ⟨S32768x7x7, .f32⟩
  | 24 => ⟨S32768x7x7, .f32⟩
  | 25 => ⟨S32768x7x7x1, .f32⟩
  | 26 => ⟨S32768x7x7, .f32⟩
  | 27 => ⟨S32768x7x7x1, .f32⟩
  | 28 => ⟨S32768x7x7, .f32⟩
  | 29 => ⟨S_, .f32⟩
  | 30 => ⟨S32768x7x7, .f32⟩
  | 31 => ⟨S32768x7x7, .f32⟩
  | 32 => ⟨S32768x7x7, .f32⟩
  | 33 => ⟨S32768x7x7x1, .f32⟩
  | 34 => ⟨S32768x7x7, .f32⟩
  | 35 => ⟨S32768x7x7x1, .f32⟩
  | 36 => ⟨S32768x7x7, .f32⟩
  | 37 => ⟨S_, .f32⟩
  | 38 => ⟨S32768x7x7, .f32⟩
  | 39 => ⟨S32768x7x7, .f32⟩
  | 40 => ⟨S32768x7x7, .f32⟩
  | 41 => ⟨S32768x7x7x1, .f32⟩
  | 42 => ⟨S32768x7x7, .f32⟩
  | 43 => ⟨S32768x7x7x1, .f32⟩
  | 44 => ⟨S32768x7x7, .f32⟩
  | 45 => ⟨S_, .f32⟩
  | 46 => ⟨S32768x7x7, .f32⟩
  | 47 => ⟨S32768x7x7, .f32⟩
  | 48 => ⟨S32768x7x7, .f32⟩
  | 49 => ⟨S32768x7x7x1, .f32⟩
  | 50 => ⟨S32768x7x7, .f32⟩
  | 51 => ⟨S32768x7x7x1, .f32⟩
  | 52 => ⟨S32768x7x7, .f32⟩
  | 53 => ⟨S_, .f32⟩
  | 54 => ⟨S32768x7x7, .f32⟩
  | 55 => ⟨S32768x7x7, .f32⟩
  | 56 => ⟨S32768x7x7, .f32⟩
  | 57 => ⟨S32768x7x7x1, .f32⟩
  | 58 => ⟨S32768x7x7, .f32⟩
  | 59 => ⟨S32768x7x7x1, .f32⟩
  | 60 => ⟨S32768x7x7, .f32⟩
  | 61 => ⟨S_, .f32⟩
  | 62 => ⟨S32768x7x7, .f32⟩
  | 63 => ⟨S32768x7x7, .f32⟩
  | 64 => ⟨S32768x7x7, .f32⟩
  | 65 => ⟨S32768x7x7x1, .f32⟩
  | 66 => ⟨S32768x7x7, .f32⟩
  | 67 => ⟨S32768x7x7x1, .f32⟩
  | 68 => ⟨S32768x7x7, .f32⟩
  | 69 => ⟨S_, .f32⟩
  | 70 => ⟨S32768x7x7, .f32⟩
  | 71 => ⟨S32768x7x7, .f32⟩
  | 72 => ⟨S32768x7x7, .f32⟩
  | 73 => ⟨S32768x7x7, .f32⟩
  | 74 => ⟨S32768x7x7, .f32⟩
  | 75 => ⟨S32768x7x7, .f32⟩
  | 76 => ⟨S_, .f32⟩
  | 77 => ⟨S_, .f32⟩
  | 78 => ⟨S32768x7x7, .f32⟩
  | 79 => ⟨S32768x7x7, .f32⟩
  | 80 => ⟨S32768x7x7, .f32⟩
  | 81 => ⟨S32768x7x7, .f32⟩
  | 82 => ⟨S32768x7x7, .f32⟩
  | 83 => ⟨S_, .f32⟩
  | 84 => ⟨S_, .f32⟩
  | 85 => ⟨S32768x7x7, .f32⟩
  | 86 => ⟨S32768x7x7, .f32⟩
  | 87 => ⟨S32768x7x7, .f32⟩
  | 88 => ⟨S32768x7x7, .f32⟩
  | 89 => ⟨S32768x7x7, .f32⟩
  | 90 => ⟨S32768x7x7, .f32⟩
  | 91 => ⟨S32768x7x7, .f32⟩
  | 92 => ⟨S32768x7x7, .f32⟩
  | 93 => ⟨S32768x7x7, .f32⟩
  | 94 => ⟨S32768x7x7, .f32⟩
  | 95 => ⟨S32768x7x7, .f32⟩
  | 96 => ⟨S_, .f32⟩
  | 97 => ⟨S32768x7x7, .f32⟩
  | 98 => ⟨S32768x7x7, .f32⟩
  | 99 => ⟨S32768x7x7, .f32⟩
  | 100 => ⟨S32768x7x7x4, .f32⟩
  | 101 => ⟨S32768x7x7x4, .f32⟩
  | 102 => ⟨S32768x7x7x1, .f32⟩
  | 103 => ⟨S32768x7x7, .f32⟩
  | 104 => ⟨S32768x7x7x1, .f32⟩
  | 105 => ⟨S32768x7x7, .f32⟩
  | 106 => ⟨S_, .f32⟩
  | 107 => ⟨S32768x7x7, .f32⟩
  | 108 => ⟨S32768x7x7, .f32⟩
  | 109 => ⟨S32768x7x7, .f32⟩
  | 110 => ⟨S32768x7x7x1, .f32⟩
  | 111 => ⟨S32768x7x7, .f32⟩
  | 112 => ⟨S32768x7x7x1, .f32⟩
  | 113 => ⟨S32768x7x7, .f32⟩
  | 114 => ⟨S_, .f32⟩
  | 115 => ⟨S32768x7x7, .f32⟩
  | 116 => ⟨S32768x7x7, .f32⟩
  | 117 => ⟨S32768x7x7, .f32⟩
  | 118 => ⟨S32768x7x7x1, .f32⟩
  | 119 => ⟨S32768x7x7, .f32⟩
  | 120 => ⟨S32768x7x7x1, .f32⟩
  | 121 => ⟨S32768x7x7, .f32⟩
  | 122 => ⟨S_, .f32⟩
  | 123 => ⟨S32768x7x7, .f32⟩
  | 124 => ⟨S32768x7x7, .f32⟩
  | 125 => ⟨S32768x7x7, .f32⟩
  | 126 => ⟨S32768x7x7x1, .f32⟩
  | 127 => ⟨S32768x7x7, .f32⟩
  | _ => ⟨S32768x7x7x30, .f32⟩

abbrev hbmTy0_1 (i : Nat) : BufTy := match i % 128 with
  | 0 => ⟨S32768x7x7x1, .f32⟩
  | 1 => ⟨S32768x7x7, .f32⟩
  | 2 => ⟨S_, .f32⟩
  | 3 => ⟨S32768x7x7, .f32⟩
  | 4 => ⟨S32768x7x7, .f32⟩
  | 5 => ⟨S32768x7x7, .f32⟩
  | 6 => ⟨S32768x7x7x1, .f32⟩
  | 7 => ⟨S32768x7x7, .f32⟩
  | 8 => ⟨S32768x7x7x1, .f32⟩
  | 9 => ⟨S32768x7x7, .f32⟩
  | 10 => ⟨S_, .f32⟩
  | 11 => ⟨S32768x7x7, .f32⟩
  | 12 => ⟨S32768x7x7, .f32⟩
  | 13 => ⟨S32768x7x7, .f32⟩
  | 14 => ⟨S32768x7x7x1, .f32⟩
  | 15 => ⟨S32768x7x7, .f32⟩
  | 16 => ⟨S32768x7x7x1, .f32⟩
  | 17 => ⟨S32768x7x7, .f32⟩
  | 18 => ⟨S_, .f32⟩
  | 19 => ⟨S32768x7x7, .f32⟩
  | 20 => ⟨S32768x7x7, .f32⟩
  | 21 => ⟨S32768x7x7, .f32⟩
  | 22 => ⟨S32768x7x7x1, .f32⟩
  | 23 => ⟨S32768x7x7, .f32⟩
  | 24 => ⟨S32768x7x7x1, .f32⟩
  | 25 => ⟨S32768x7x7, .f32⟩
  | 26 => ⟨S_, .f32⟩
  | 27 => ⟨S32768x7x7, .f32⟩
  | 28 => ⟨S32768x7x7, .f32⟩
  | 29 => ⟨S32768x7x7, .f32⟩
  | 30 => ⟨S32768x7x7x1, .f32⟩
  | 31 => ⟨S32768x7x7, .f32⟩
  | 32 => ⟨S32768x7x7x1, .f32⟩
  | 33 => ⟨S32768x7x7, .f32⟩
  | 34 => ⟨S_, .f32⟩
  | 35 => ⟨S32768x7x7, .f32⟩
  | 36 => ⟨S32768x7x7, .f32⟩
  | 37 => ⟨S32768x7x7, .f32⟩
  | 38 => ⟨S32768x7x7, .f32⟩
  | 39 => ⟨S32768x7x7, .f32⟩
  | 40 => ⟨S32768x7x7, .f32⟩
  | 41 => ⟨S_, .f32⟩
  | 42 => ⟨S_, .f32⟩
  | 43 => ⟨S32768x7x7, .f32⟩
  | 44 => ⟨S32768x7x7, .f32⟩
  | 45 => ⟨S32768x7x7, .f32⟩
  | 46 => ⟨S32768x7x7, .f32⟩
  | 47 => ⟨S32768x7x7, .f32⟩
  | 48 => ⟨S_, .f32⟩
  | 49 => ⟨S_, .f32⟩
  | 50 => ⟨S32768x7x7, .f32⟩
  | 51 => ⟨S32768x7x7, .f32⟩
  | 52 => ⟨S32768x7x7, .f32⟩
  | 53 => ⟨S32768x7x7, .f32⟩
  | 54 => ⟨S32768x7x7, .f32⟩
  | 55 => ⟨S32768x7x7, .f32⟩
  | 56 => ⟨S32768x7x7, .f32⟩
  | 57 => ⟨S32768x7x7, .f32⟩
  | 58 => ⟨S32768x7x7, .f32⟩
  | 59 => ⟨S32768x7x7, .f32⟩
  | 60 => ⟨S32768x7x7, .f32⟩
  | 61 => ⟨S_, .f32⟩
  | 62 => ⟨S32768x7x7, .f32⟩
  | 63 => ⟨S32768x7x7, .f32⟩
  | 64 => ⟨S32768x7x7, .f32⟩
  | 65 => ⟨S32768x7x7, .i1⟩
  | 66 => ⟨S32768x7x7x4, .f32⟩
  | 67 => ⟨S32768x7x7x4, .f32⟩
  | 68 => ⟨S32768x7x7x2, .f32⟩
  | 69 => ⟨S32768x7x7x2, .f32⟩
  | 70 => ⟨S32768x7x7x2, .f32⟩
  | 71 => ⟨S32768x7x7x2, .f32⟩
  | 72 => ⟨S_, .f32⟩
  | 73 => ⟨S32768x7x7, .f32⟩
  | 74 => ⟨S32768x7x7x2, .f32⟩
  | 75 => ⟨S_, .f32⟩
  | 76 => ⟨S32768x7x7x2, .f32⟩
  | 77 => ⟨S32768x7x7x2, .f32⟩
  | 78 => ⟨S32768x7x7x2, .f32⟩
  | 79 => ⟨S32768x7x7x2, .f32⟩
  | 80 => ⟨S_, .f32⟩
  | 81 => ⟨S32768x7x7x2, .f32⟩
  | 82 => ⟨S32768x7x7x2, .f32⟩
  | 83 => ⟨S32768x7x7x2, .f32⟩
  | 84 => ⟨S32768x7x7x2, .f32⟩
  | 85 => ⟨S32768x7x7x2, .f32⟩
  | 86 => ⟨S_, .f32⟩
  | 87 => ⟨S32768x7x7, .f32⟩
  | 88 => ⟨S32768x7x7, .f32⟩
  | 89 => ⟨S32768x7x7x4, .f32⟩
  | 90 => ⟨S32768x7x7x4, .f32⟩
  | 91 => ⟨S32768x7x7x2, .f32⟩
  | 92 => ⟨S32768x7x7x2, .f32⟩
  | 93 => ⟨S32768x7x7x2, .f32⟩
  | 94 => ⟨S32768x7x7x2, .f32⟩
  | 95 => ⟨S_, .f32⟩
  | 96 => ⟨S32768x7x7, .f32⟩
  | 97 => ⟨S32768x7x7x2, .f32⟩
  | 98 => ⟨S_, .f32⟩
  | 99 => ⟨S32768x7x7x2, .f32⟩
  | 100 => ⟨S32768x7x7x2, .f32⟩
  | 101 => ⟨S32768x7x7x2, .f32⟩
  | 102 => ⟨S32768x7x7x2, .f32⟩
  | 103 => ⟨S_, .f32⟩
  | 104 => ⟨S32768x7x7x2, .f32⟩
  | 105 => ⟨S32768x7x7x2, .f32⟩
  | 106 => ⟨S32768x7x7x2, .f32⟩
  | 107 => ⟨S32768x7x7x2, .f32⟩
  | 108 => ⟨S32768x7x7x2, .f32⟩
  | 109 => ⟨S_, .f32⟩
  | 110 => ⟨S32768x7x7, .f32⟩
  | 111 => ⟨S32768x7x7, .f32⟩
  | 112 => ⟨S32768x7x7, .f32⟩
  | 113 => ⟨S_, .f32⟩
  | 114 => ⟨S32768x7x7, .f32⟩
  | 115 => ⟨S32768x7x7, .f32⟩
  | 116 => ⟨S32768x7x7x1, .f32⟩
  | 117 => ⟨S32768x7x7, .f32⟩
  | 118 => ⟨S32768x7x7x1, .f32⟩
  | 119 => ⟨S32768x7x7, .f32⟩
  | 120 => ⟨S32768x7x7, .f32⟩
  | 121 => ⟨S32768x7x7, .f32⟩
  | 122 => ⟨S32768x7x7x1, .f32⟩
  | 123 => ⟨S32768x7x7, .f32⟩
  | 124 => ⟨S32768x7x7x1, .f32⟩
  | 125 => ⟨S32768x7x7, .f32⟩
  | 126 => ⟨S32768x7x7, .f32⟩
  | 127 => ⟨S32768x7x7, .f32⟩
  | _ => ⟨S32768x7x7x30, .f32⟩

abbrev hbmTy0_2 (i : Nat) : BufTy := match i % 128 with
  | 0 => ⟨S_, .f32⟩
  | 1 => ⟨S32768x7x7, .f32⟩
  | 2 => ⟨S32768x7x7, .f32⟩
  | 3 => ⟨S32768x7x7, .f32⟩
  | 4 => ⟨S_, .f32⟩
  | 5 => ⟨S32768x7x7, .f32⟩
  | 6 => ⟨S32768x7x7, .f32⟩
  | 7 => ⟨S32768x7x7, .f32⟩
  | 8 => ⟨S32768x7x7, .f32⟩
  | 9 => ⟨S32768x7x7, .f32⟩
  | 10 => ⟨S_, .f32⟩
  | 11 => ⟨S32768x7x7, .f32⟩
  | 12 => ⟨S32768x7x7, .f32⟩
  | 13 => ⟨S32768x7x7x20, .f32⟩
  | 14 => ⟨S32768x7x7x20, .f32⟩
  | 15 => ⟨S32768x7x7x20, .f32⟩
  | 16 => ⟨S32768x7x7x20, .f32⟩
  | 17 => ⟨S_, .f32⟩
  | 18 => ⟨S32768x7x7, .f32⟩
  | 19 => ⟨S32768x7x7, .f32⟩
  | 20 => ⟨S32768x7x7, .f32⟩
  | 21 => ⟨S32768x7x7, .f32⟩
  | 22 => ⟨S32768x7x7, .f32⟩
  | 23 => ⟨S_, .f32⟩
  | 24 => ⟨S32768x7x7, .f32⟩
  | 25 => ⟨S32768x7x7, .f32⟩
  | 26 => ⟨S32768x7x7, .f32⟩
  | 27 => ⟨S32768x7x7, .f32⟩
  | 28 => ⟨S_, .f32⟩
  | 29 => ⟨S_, .f32⟩
  | _ => ⟨S32768x7x7x30, .f32⟩

abbrev hbmTy (i : Nat) : BufTy := match i / 128 with
  | 0 => hbmTy0_0 i
  | 1 => hbmTy0_1 i
  | 2 => hbmTy0_2 i
  | _ => ⟨S32768x7x7x30, .f32⟩

abbrev bufTy : (tb : Table) → Fin (tcTables nBuf tb) → BufTy
  | .hbm, ⟨i, _⟩ => hbmTy i
  | _, _ => ⟨S32768x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_14 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_16 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_17 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_18 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_19 : Ref sig .tc := ⟨.hbm, 169, rfl⟩
abbrev main_call2_v0 : Ref sig .tc := ⟨.hbm, 170, rfl⟩
abbrev main_call2_v1 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_20 : Ref sig .tc := ⟨.hbm, 176, rfl⟩
abbrev main_call3_v0 : Ref sig .tc := ⟨.hbm, 177, rfl⟩
abbrev main_call3_v1 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_21 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_22 : Ref sig .tc := ⟨.hbm, 200, rfl⟩
abbrev main_v167 : Ref sig .tc := ⟨.hbm, 201, rfl⟩
abbrev main_v168 : Ref sig .tc := ⟨.hbm, 202, rfl⟩
abbrev main_cst_23 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_cst_24 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_25 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_cst_26 : Ref sig .tc := ⟨.hbm, 223, rfl⟩
abbrev main_v186 : Ref sig .tc := ⟨.hbm, 224, rfl⟩
abbrev main_v187 : Ref sig .tc := ⟨.hbm, 225, rfl⟩
abbrev main_cst_27 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_cst_28 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_cst_29 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_30 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_31 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_cst_32 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_cst_33 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_cst_34 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_cst_35 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_cst_36 : Ref sig .tc := ⟨.hbm, 284, rfl⟩
abbrev main_v237 : Ref sig .tc := ⟨.hbm, 285, rfl⟩

abbrev nD : Nat := 1
abbrev τ : Topo := Topo.v7x

variable {F : FTy → Type} [FloatOps F]

class Facts₀ : Prop where
  slices_S32768x7x7x30_S32768x7x7x1_0_0_0_0 : S32768x7x7x30.Slices ![0, 0, 0, 0] S32768x7x7x1
  shapeCasts_S32768x7x7x1_S32768x7x7 : S32768x7x7x1.ShapeCasts S32768x7x7
  bcast_S_S32768x7x7 : S_.BroadcastsInDim S32768x7x7 (![] : Fin 0 → Fin S32768x7x7.rank)
  slices_S32768x7x7x30_S32768x7x7x4_0_0_0_1 : S32768x7x7x30.Slices ![0, 0, 0, 1] S32768x7x7x4
  slices_S32768x7x7x4_S32768x7x7x1_0_0_0_0 : S32768x7x7x4.Slices ![0, 0, 0, 0] S32768x7x7x1
  slices_S32768x7x7x4_S32768x7x7x1_0_0_0_2 : S32768x7x7x4.Slices ![0, 0, 0, 2] S32768x7x7x1
  slices_S32768x7x7x4_S32768x7x7x1_0_0_0_1 : S32768x7x7x4.Slices ![0, 0, 0, 1] S32768x7x7x1
  slices_S32768x7x7x4_S32768x7x7x1_0_0_0_3 : S32768x7x7x4.Slices ![0, 0, 0, 3] S32768x7x7x1
  slices_S32768x7x7x30_S32768x7x7x4_0_0_0_6 : S32768x7x7x30.Slices ![0, 0, 0, 6] S32768x7x7x4
  slices_S32768x7x7x4_S32768x7x7x2_0_0_0_0 : S32768x7x7x4.Slices ![0, 0, 0, 0] S32768x7x7x2
  reducesTo_S32768x7x7x2_S32768x7x7_d3 : S32768x7x7x2.ReducesTo [3] S32768x7x7
  h_S_ : 0 < S_.numel
  slices_S32768x7x7x4_S32768x7x7x2_0_0_0_2 : S32768x7x7x4.Slices ![0, 0, 0, 2] S32768x7x7x2
  bcast_S_S32768x7x7x2 : S_.BroadcastsInDim S32768x7x7x2 (![] : Fin 0 → Fin S32768x7x7x2.rank)
  slices_S32768x7x7x30_S32768x7x7x1_0_0_0_5 : S32768x7x7x30.Slices ![0, 0, 0, 5] S32768x7x7x1
  slices_S32768x7x7x30_S32768x7x7x20_0_0_0_10 : S32768x7x7x30.Slices ![0, 0, 0, 10] S32768x7x7x20
  reducesTo_S32768x7x7x20_S32768x7x7_d3 : S32768x7x7x20.ReducesTo [3] S32768x7x7
  reducesTo_S32768x7x7_S_d0_1_2 : S32768x7x7.ReducesTo [0, 1, 2] S_

variable [Facts₀]

class Facts : Prop extends Facts₀ where

variable [Facts]
-- ==== Proof.CellLoss.lean ====
/-
  The detection loss of one grid cell, as ONE function of the thirty channel values of the predicted cell `p` and of
  the target cell `t`, on the extended reals.

  Channels: 0 the first confidence, 1–4 the first box (centre x, centre y, width, height), 5 the second confidence,
  6–9 the second box, 10–29 the class scores.  A box with centre `c` and extent `w` along an axis spans
  `[c − w/2, c + w/2]`; the overlap of two boxes along an axis is the positive part of (least upper end − greatest
  lower end); the intersection is the product of the two overlaps, the union the two areas minus the intersection, and
  the intersection-over-union is intersection / (union + ε).  The box term is the squared distance of the centres plus the
  squared distance of the square roots of the (ε-shifted) extents.  The predicted box with the larger
  intersection-over-union is the responsible one: it pays the box term five-fold and its confidence error in full, the
  other box's confidence error at one half.  A cell whose target objectness (channel 0) is exactly one pays that plus the
  squared class error; any other cell pays one half of both confidence errors.
-/
import Idealize.ShloMosaic.PureOps.Ideal
import Idealize.ShloMosaic.Lib.ValueIdx

noncomputable section

namespace Cert.CellLoss

open Idealize.ShloMosaic

/-- The constants, as the extended reals their f32 patterns denote: 0, 1, 2, 5, 1/2 and ε (the f32 nearest 1e-6). -/
abbrev c0 : EReal := Ideal.ofBits .f32 0x00000000#32
abbrev c1 : EReal := Ideal.ofBits .f32 0x3F800000#32
abbrev c2 : EReal := Ideal.ofBits .f32 0x40000000#32
abbrev c5 : EReal := Ideal.ofBits .f32 0x40A00000#32
abbrev chalf : EReal := Ideal.ofBits .f32 0x3F000000#32
abbrev ceps : EReal := Ideal.ofBits .f32 0x358637BD#32

/-- The lower and the upper end of the interval with centre `c` and extent `w`. -/
def lo (c w : EReal) : EReal := c - Ideal.div w c2
def hi (c w : EReal) : EReal := c + Ideal.div w c2

/-- The overlap along one axis of the intervals (centre, extent) = (a, aw) and (b, bw): its positive part. -/
def overlap (a aw b bw : EReal) : EReal := max (min (hi a aw) (hi b bw) - max (lo a aw) (lo b bw)) c0

/-- Intersection over union of the boxes (ax, ay, aw, ah) and (bx, by, bw, bh). -/
def iou (ax ay aw ah bx by' bw bh : EReal) : EReal :=
  Ideal.div (overlap ax aw bx bw * overlap ay ah by' bh)
    ((hi ax aw - lo ax aw) * (hi ay ah - lo ay ah) + (hi bx bw - lo bx bw) * (hi by' bh - lo by' bh)
        - overlap ax aw bx bw * overlap ay ah by' bh + ceps)

def sq (x : EReal) : EReal := x * x

variable (p t : Fin 30 → EReal)

/-- Intersection over union of the predicted and the target box whose four channels start at channel `o`. -/
def iouAt (o : ℕ) (ho : o + 4 ≤ 30) : EReal :=
  iou (p ⟨o, by omega⟩) (p ⟨o + 1, by omega⟩) (p ⟨o + 2, by omega⟩) (p ⟨o + 3, by omega⟩)
    (t ⟨o, by omega⟩) (t ⟨o + 1, by omega⟩) (t ⟨o + 2, by omega⟩) (t ⟨o + 3, by omega⟩)

/-- Squared distance of the centres of the box at channel `o`. -/
def centreErr (o : ℕ) (ho : o + 4 ≤ 30) : EReal :=
  ∑ k : Fin 2, sq (p ⟨o + k.val, by omega⟩ - t ⟨o + k.val, by omega⟩)

/-- Squared distance of the square roots of the ε-shifted extents of the box at channel `o`. -/
def extentErr (o : ℕ) (ho : o + 4 ≤ 30) : EReal :=
  ∑ k : Fin 2, sq (Ideal.sqrt (p ⟨o + 2 + k.val, by omega⟩ + ceps) - Ideal.sqrt (t ⟨o + 2 + k.val, by omega⟩ + ceps))

def boxErr (o : ℕ) (ho : o + 4 ≤ 30) : EReal := centreErr p t o ho + extentErr p t o ho

/-- The first box is the responsible one: its intersection over union is the greater. -/
def firstResp : BitVec 1 := Ideal.cmp .ogt (iouAt p t 1 (by omega)) (iouAt p t 6 (by omega))

/-- The confidence errors of the two boxes and the class error. -/
def conf0 : EReal := sq (p 0 - t 0)
def conf5 : EReal := sq (p 5 - t 5)
def clsErr : EReal := ∑ k : Fin 20, sq (p ⟨10 + k.val, by omega⟩ - t ⟨10 + k.val, by omega⟩)

/-- The target's objectness is exactly one: as the number 1 or 0. -/
def objf : EReal := (((Ideal.cmp .oeq (t 0) c1).toNat : ℝ) : EReal)

/-- The loss of the cell. -/
def cell : EReal :=
  objf t * ((c5 * Scalar.select (firstResp p t) (boxErr p t 1 (by omega)) (boxErr p t 6 (by omega))
      + Scalar.select (firstResp p t) (conf0 p t + chalf * conf5 p t) (conf5 p t + chalf * conf0 p t)) + clsErr p t)
    + (c1 - objf t) * (chalf * (conf0 p t + conf5 p t))

end Cert.CellLoss

end
-- ==== Proof.KernelCell.lean ====
/-
  The kernel's loop body, read at a cell.  A trip of the loop loads a chunk of sixteen rows of the predictions (`v17`) and of
  the targets (`v19`), each of shape [16, 7, 7, 30], and computes from them, cell by cell, the loss of `CellLoss.cell`: channels
  are cut out as slices of the last axis and viewed without their unit axis, the sums over channels are sums over the last
  axis, and everything else is pointwise.  This module reads each intermediate value of that computation at a cell
  `(b, i, j)` of the chunk as the corresponding piece of `CellLoss` — the two intersections over union, the comparison that
  names the responsible box, the box errors — and the row sums of the per-cell loss (over the last axis, then the middle
  one) at a row `b` as the sum of the losses of the row's forty-nine cells.
-/
import proofs.«133747_j1108101562907_2_alg».proof.Proof.Gen.KernelIdeal.Skeleton
import proofs.«133747_j1108101562907_2_alg».proof.Proof.CellLoss
import Idealize.ShloMosaic.Lib.ValueIdx
import Idealize.ShloMosaic.Lib.Pipeline.Value
import Idealize.ShloMosaic.PureOps.Ideal.Laws

noncomputable section

namespace Cert.KernelCell

open Idealize.ShloMosaic Idealize.ShloMosaic.ValueIdx Cert.KernelIdeal Cert.KernelIdeal.Gen Cert.CellLoss

/-- Channel `n` of a cell, cut out of the chunk as a one-channel slice and viewed without its unit axis. -/
theorem chan_apply (v : S16x7x7x30.Idx → EReal) (n : ℕ) (hn : n < 30) (h : S16x7x7x30.Slices ![0, 0, 0, n] S16x7x7x1)
    (h' : S16x7x7x1.ShapeCasts S16x7x7) (b : Fin 16) (i j : Fin 7) :
    shapeCast S16x7x7 (extractStridedSlice S16x7x7x1 ![0, 0, 0, n] v h) h' (ix3 b i j) = v (ix4 b i j ⟨n, hn⟩) := by
  rw [shapeCast_apply _ h' (ix3 b i j) (ix4 b i j 0) (by
    rewrite [Shape.rowMajor_val_four, Shape.rowMajor_val_three]
    show (((b.val * 7 + i.val) * 7 + j.val) * 1 + 0) = ((b.val * 7 + i.val) * 7 + j.val); omega)]
  exact extractStridedSlice_apply _ v h (ix4 b i j 0) (ix4 b i j ⟨n, hn⟩) (fun a => match a with
    | ⟨0, _⟩ => by show b.val = 0 + b.val; omega
    | ⟨1, _⟩ => by show i.val = 0 + i.val; omega
    | ⟨2, _⟩ => by show j.val = 0 + j.val; omega
    | ⟨3, _⟩ => by show n = n + 0; omega)

/-- A four-channel group starting at channel `o`, then channel `n` of the group. -/
theorem chan4_apply (v : S16x7x7x30.Idx → EReal) (o n : ℕ) (hn : o + n < 30) (h0 : S16x7x7x30.Slices ![0, 0, 0, o] S16x7x7x4)
    (h : S16x7x7x4.Slices ![0, 0, 0, n] S16x7x7x1)
    (h' : S16x7x7x1.ShapeCasts S16x7x7) (b : Fin 16) (i j : Fin 7) :
    shapeCast S16x7x7 (extractStridedSlice S16x7x7x1 ![0, 0, 0, n] (extractStridedSlice S16x7x7x4 ![0, 0, 0, o] v h0) h) h' (ix3 b i j)
      = v (ix4 b i j ⟨o + n, hn⟩) := by
  have hn4 : n < 4 := by have := h.2 3; simpa using this
  rw [shapeCast_apply _ h' (ix3 b i j) (ix4 b i j 0) (by
    rewrite [Shape.rowMajor_val_four, Shape.rowMajor_val_three]
    show (((b.val * 7 + i.val) * 7 + j.val) * 1 + 0) = ((b.val * 7 + i.val) * 7 + j.val); omega)]
  rw [extractStridedSlice_apply _ _ h (ix4 b i j 0) (ix4 b i j ⟨n, hn4⟩) (fun a => match a with
    | ⟨0, _⟩ => by show b.val = 0 + b.val; omega
    | ⟨1, _⟩ => by show i.val = 0 + i.val; omega
    | ⟨2, _⟩ => by show j.val = 0 + j.val; omega
    | ⟨3, _⟩ => by show n = n + 0; omega)]
  exact extractStridedSlice_apply _ v h0 (ix4 b i j ⟨n, hn4⟩) (ix4 b i j ⟨o + n, hn⟩) (fun a => match a with
    | ⟨0, _⟩ => by show b.val = 0 + b.val; omega
    | ⟨1, _⟩ => by show i.val = 0 + i.val; omega
    | ⟨2, _⟩ => by show j.val = 0 + j.val; omega
    | ⟨3, _⟩ => by show o + n = o + n; omega)

/-- Two channels `o + n + k` (k = 0, 1) of a four-channel group starting at `o`. -/
theorem pair4_apply (v : S16x7x7x30.Idx → EReal) (o n : ℕ) (hn : o + n + 2 ≤ 30) (h0 : S16x7x7x30.Slices ![0, 0, 0, o] S16x7x7x4)
    (h : S16x7x7x4.Slices ![0, 0, 0, n] S16x7x7x2) (b : Fin 16) (i j : Fin 7) (k : Fin 2) :
    extractStridedSlice S16x7x7x2 ![0, 0, 0, n] (extractStridedSlice S16x7x7x4 ![0, 0, 0, o] v h0) h (ix4 b i j k)
      = v (ix4 b i j ⟨o + n + k.val, by omega⟩) := by
  have h3 : n + 2 ≤ 4 := by have := h.2 3; simpa using this
  have hn4 : n + k.val < 4 := by have := k.isLt; omega
  rw [extractStridedSlice_apply _ _ h (ix4 b i j k) (ix4 b i j ⟨n + k.val, hn4⟩) (fun a => match a with
    | ⟨0, _⟩ => by show b.val = 0 + b.val; omega
    | ⟨1, _⟩ => by show i.val = 0 + i.val; omega
    | ⟨2, _⟩ => by show j.val = 0 + j.val; omega
    | ⟨3, _⟩ => by show n + k.val = n + k.val; omega)]
  exact extractStridedSlice_apply _ v h0 (ix4 b i j ⟨n + k.val, hn4⟩) (ix4 b i j ⟨o + n + k.val, by omega⟩) (fun a => match a with
    | ⟨0, _⟩ => by show b.val = 0 + b.val; omega
    | ⟨1, _⟩ => by show i.val = 0 + i.val; omega
    | ⟨2, _⟩ => by show j.val = 0 + j.val; omega
    | ⟨3, _⟩ => by show o + n + k.val = o + (n + k.val); omega)

/-- A sum over the channel axis of a two-channel vector, at a cell. -/
theorem laneSum2_apply (src : FVec Ideal S16x7x7x2 .f32) (h : S16x7x7x2.Reduces [3] S16x7x7) (b : Fin 16) (i j : Fin 7) :
    Ideal.reduceAdd h src (ix3 b i j) = ∑ k : Fin 2, src (ix4 b i j k) := by
  refine (Ideal.multiReduction_add_single src 0x00000000#32 h (.inl rfl) rfl (ix3 b i j)).trans ?_
  show ∑ k : Fin 2, src (h.lift (ix3 b i j) k) = _
  exact Finset.sum_congr rfl fun k _ => congrArg src (by funext c; apply Fin.ext; fin_cases c <;> rfl)

/-- A sum over the channel axis of a twenty-channel vector, at a cell. -/
theorem laneSum20_apply (src : FVec Ideal S16x7x7x20 .f32) (h : S16x7x7x20.Reduces [3] S16x7x7) (b : Fin 16) (i j : Fin 7) :
    Ideal.reduceAdd h src (ix3 b i j) = ∑ k : Fin 20, src (ix4 b i j k) := by
  refine (Ideal.multiReduction_add_single src 0x00000000#32 h (.inl rfl) rfl (ix3 b i j)).trans ?_
  show ∑ k : Fin 20, src (h.lift (ix3 b i j) k) = _
  exact Finset.sum_congr rfl fun k _ => congrArg src (by funext c; apply Fin.ext; fin_cases c <;> rfl)

theorem sqrt_apply {s : Shape} (a : FVec Ideal s .f32) (i : s.Idx) : sqrt a i = Ideal.sqrt (a i) := rfl

/-- The twenty class channels 10 … 29. -/
theorem slice20_apply (v : S16x7x7x30.Idx → EReal) (h : S16x7x7x30.Slices ![0, 0, 0, 10] S16x7x7x20)
    (b : Fin 16) (i j : Fin 7) (k : Fin 20) :
    extractStridedSlice S16x7x7x20 ![0, 0, 0, 10] v h (ix4 b i j k) = v (ix4 b i j ⟨10 + k.val, by omega⟩) :=
  extractStridedSlice_apply _ v h (ix4 b i j k) (ix4 b i j ⟨10 + k.val, by omega⟩) (fun a => match a with
    | ⟨0, _⟩ => by show b.val = 0 + b.val; omega
    | ⟨1, _⟩ => by show i.val = 0 + i.val; omega
    | ⟨2, _⟩ => by show j.val = 0 + j.val; omega
    | ⟨3, _⟩ => by show 10 + k.val = 10 + k.val; omega)

/-- The sum over the last axis of a `[16, 7, 7]` vector, at a row. -/
theorem laneSum7_apply (src : FVec Ideal S16x7x7 .f32) (h : S16x7x7.Reduces [2] S16x7) (b : Fin 16) (i : Fin 7) :
    Ideal.reduceAdd h src (ix2 b i) = ∑ j : Fin 7, src (ix3 b i j) := by
  refine (Ideal.multiReduction_add_single src 0x00000000#32 h (.inl rfl) rfl (ix2 b i)).trans ?_
  show ∑ j : Fin 7, src (h.lift (ix2 b i) j) = _
  exact Finset.sum_congr rfl fun k _ => congrArg src (by funext c; apply Fin.ext; fin_cases c <;> rfl)

/-- The sum over the middle axis of a `[16, 7, 1]` vector. -/
theorem midSum7_apply (src : FVec Ideal S16x7x1 .f32) (h : S16x7x1.Reduces [1] S16x1) (b : Fin 16) :
    Ideal.reduceAdd h src (ix2 b 0) = ∑ i : Fin 7, src (ix3 b i 0) := by
  refine (Ideal.multiReduction_add_single src 0x00000000#32 h (.inl rfl) rfl (ix2 b 0)).trans ?_
  show ∑ i : Fin 7, src (h.lift (ix2 b 0) i) = _
  exact Finset.sum_congr rfl fun k _ => congrArg src (by funext c; apply Fin.ext; fin_cases c <;> rfl)

/-- The sum over the first axis of a `[16, 1, 1]` vector. -/
theorem firstSum16_apply (src : FVec Ideal S16x1x1 .f32) (h : S16x1x1.Reduces [0] S1x1) :
    Ideal.reduceAdd h src (ix2 0 0) = ∑ b : Fin 16, src (ix3 b 0 0) := by
  refine (Ideal.multiReduction_add_single src 0x00000000#32 h (.inl rfl) rfl (ix2 0 0)).trans ?_
  show ∑ b : Fin 16, src (h.lift (ix2 0 0) b) = _
  exact Finset.sum_congr rfl fun k _ => congrArg src (by funext c; apply Fin.ext; fin_cases c <;> rfl)

/-- `[16, 7]` viewed `[16, 7, 1]`. -/
theorem cast_ab1_apply (x : S16x7.Idx → EReal) (h : S16x7.ShapeCasts S16x7x1) (b : Fin 16) (i : Fin 7) :
    shapeCast S16x7x1 x h (ix3 b i 0) = x (ix2 b i) :=
  shapeCast_apply x h (ix3 b i 0) (ix2 b i) (by
    rewrite [Shape.rowMajor_val_three, Shape.rowMajor_val_two]
    show b.val * 7 + i.val = (b.val * 7 + i.val) * 1 + 0; omega)

/-- `[16, 1]` viewed `[16, 1, 1]`. -/
theorem cast_a11_apply (x : S16x1.Idx → EReal) (h : S16x1.ShapeCasts S16x1x1) (b : Fin 16) :
    shapeCast S16x1x1 x h (ix3 b 0 0) = x (ix2 b 0) :=
  shapeCast_apply x h (ix3 b 0 0) (ix2 b 0) (by
    rewrite [Shape.rowMajor_val_three, Shape.rowMajor_val_two]
    show b.val * 1 + 0 = (b.val * 1 + 0) * 1 + 0; omega)

/-- A one-bit word widened to 32 bits and read as a signed integer is the bit. -/
theorem bit_to_real (c : BitVec 1) : FloatOps.sitofp (F := Ideal) .f32 (c.setWidth 32) = (((c.toNat : ℝ)) : EReal) := by
  have h : (c.setWidth 32).toInt = (c.toNat : ℤ) := by revert c; decide
  show (((c.setWidth 32).toInt : ℝ) : EReal) = _
  rw [h]; norm_cast

variable (v17 v19 : Vec Ideal S16x7x7x30 .f32) (b : Fin 16) (i j : Fin 7)

/-- The intersection over union of the first boxes. -/
theorem pay14_apply :
    k0_pay14 (F := Ideal) (k0_pay7 v19) (k0_pay8 v17) (k0_pay9 v17) (k0_pay10 v17) (k0_pay11 v17) (k0_pay12 v19) (k0_pay13 v19) (ix3 b i j)
      = iouAt (fun q => v17 (ix4 b i j q)) (fun q => v19 (ix4 b i j q)) 1 (by omega) := by
  unfold k0_pay14 k0_pay8 k0_pay9 k0_pay10 k0_pay11 k0_pay12 k0_pay13 k0_pay7 k0_pay6
  simp (disch := omega) only [subf_apply, addf_apply, mulf_apply, divf_apply, maximumf_apply, minimumf_apply, broadcast_apply, chan4_apply]
  rfl

/-- The first box is the responsible one: the comparison of the two intersections over union. -/
theorem pay26_apply (v103 : FVec Ideal S16x7x7 .f32) :
    k0_pay26 (F := Ideal) v103 (k0_pay17 v17) (k0_pay18 (k0_pay15 v17)) (k0_pay19 (k0_pay15 v17)) (k0_pay20 (k0_pay15 v17))
        (k0_pay21 (k0_pay16 v19)) (k0_pay22 (k0_pay16 v19)) (k0_pay23 (k0_pay16 v19)) (k0_pay24 (k0_pay16 v19))
        (k0_pay25 (k0_pay15 v17) (k0_pay16 v19) (k0_pay17 v17)) (Scalar.ofBits .f32 0x00000000#32) (ix3 b i j)
      = Ideal.cmp .ogt (v103 (ix3 b i j)) (iouAt (fun q => v17 (ix4 b i j q)) (fun q => v19 (ix4 b i j q)) 6 (by omega)) := by
  unfold k0_pay26 k0_pay25 k0_pay17 k0_pay18 k0_pay19 k0_pay20 k0_pay21 k0_pay22 k0_pay23 k0_pay24 k0_pay15 k0_pay16
  simp (disch := omega) only [subf_apply, addf_apply, mulf_apply, divf_apply, maximumf_apply, minimumf_apply, broadcast_apply, cmpf_apply, chan4_apply]
  rfl

/-- The box error of the first boxes. -/
theorem pay27_apply :
    k0_pay27 (F := Ideal) v17 v19 (ix3 b i j)
      = boxErr (fun q => v17 (ix4 b i j q)) (fun q => v19 (ix4 b i j q)) 1 (by omega) := by
  unfold k0_pay27
  simp (disch := omega) only [multiReduction, Ideal.reduceAdd_def, subf_apply, addf_apply, mulf_apply, broadcast_apply, sqrt_apply, laneSum2_apply, pair4_apply]
  rfl

/-- The centre error of the second boxes. -/
theorem pay30_apply :
    k0_pay30 (F := Ideal) v17 v19 (ix3 b i j)
      = centreErr (fun q => v17 (ix4 b i j q)) (fun q => v19 (ix4 b i j q)) 6 (by omega) := by
  unfold k0_pay30 k0_pay28 k0_pay29
  simp (disch := omega) only [multiReduction, Ideal.reduceAdd_def, subf_apply, mulf_apply, laneSum2_apply, pair4_apply]
  rfl

/-- The loss of a cell, from the chunk's intermediate values: the sum of a chunk row's forty-nine cells. -/
theorem pay33_apply (v23 v184 : IVec S16x7x7 1) (v203 v210 : FVec Ideal S16x7x7 .f32)
    (h23 : ∀ i j, v23 (ix3 b i j) = Ideal.cmp .oeq (v19 (ix4 b i j 0)) c1)
    (h184 : ∀ i j, v184 (ix3 b i j) = firstResp (fun q => v17 (ix4 b i j q)) (fun q => v19 (ix4 b i j q)))
    (h203 : ∀ i j, v203 (ix3 b i j) = boxErr (fun q => v17 (ix4 b i j q)) (fun q => v19 (ix4 b i j q)) 1 (by omega))
    (h210 : ∀ i j, v210 (ix3 b i j) = centreErr (fun q => v17 (ix4 b i j q)) (fun q => v19 (ix4 b i j q)) 6 (by omega)) :
    k0_pay33 (F := Ideal) v17 v19 v23 v184 v203 v210 (k0_pay31 v17) (k0_pay32 v19) (Scalar.ofBits .f32 0x358637BD#32) (ix3 b 0 0)
      = ∑ i : Fin 7, ∑ j : Fin 7, cell (fun q => v17 (ix4 b i j q)) (fun q => v19 (ix4 b i j q)) := by
  unfold k0_pay33 k0_pay31 k0_pay32 k0_pay28 k0_pay29
  simp (disch := omega) only [multiReduction, Ideal.reduceAdd_def, cast_a11_apply, midSum7_apply, cast_ab1_apply, laneSum7_apply,
    subf_apply, addf_apply, mulf_apply, broadcast_apply, select_apply, extui_apply, sitofp_apply, sqrt_apply, bit_to_real,
    laneSum2_apply, laneSum20_apply, pair4_apply, slice20_apply, chan_apply, h23, h184, h203, h210]
  rfl

end Cert.KernelCell

end
-- ==== Proof.KernelRun.lean ====
/-
  What the kernel's body leaves, case by case, in terms of its loop.  One trip of the loop adds to the value it carries the
  sum over the sixteen rows of one chunk (`chunkRows` of the two loaded chunks); the loop starts from zero and leaves
  `loopRes`.  At the grid's first point the body resets the scratch accumulator and then adds the loop's result to it; at every
  later point it adds the loop's result to what the point before left; at the last point it also copies the accumulator
  into the output block.  These are statements about the values the body's stores write, at any float instance.
-/
import proofs.«133747_j1108101562907_2_alg».proof.Proof.Gen.KernelIdeal.Frame
import Idealize.ShloMosaic.Lib.Pipeline.Value
import Idealize.ShloMosaic.Lib.Tactic

set_option maxRecDepth 16384

noncomputable section

namespace Cert.KernelRun

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- One chunk of sixteen rows: the loss of each row's forty-nine cells summed per row, from the chunk of the predictions
    `v17` and of the targets `v19` — the loop body's arithmetic with its intermediate values put back in place. -/
def chunkRows (v17 v19 : Vec F S16x7x7x30 .f32) : FVec F S16x1x1 .f32 :=
  k0_pay33 v17 v19 (k0_pay5 v19)
    (k0_pay26 (k0_pay14 (k0_pay7 v19) (k0_pay8 v17) (k0_pay9 v17) (k0_pay10 v17) (k0_pay11 v17) (k0_pay12 v19) (k0_pay13 v19))
      (k0_pay17 v17) (k0_pay18 (k0_pay15 v17)) (k0_pay19 (k0_pay15 v17)) (k0_pay20 (k0_pay15 v17))
      (k0_pay21 (k0_pay16 v19)) (k0_pay22 (k0_pay16 v19)) (k0_pay23 (k0_pay16 v19)) (k0_pay24 (k0_pay16 v19))
      (k0_pay25 (k0_pay15 v17) (k0_pay16 v19) (k0_pay17 v17)) (Scalar.ofBits .f32 0x00000000#32))
    (k0_pay27 v17 v19) (k0_pay30 v17 v19) (k0_pay31 v17) (k0_pay32 v19) (Scalar.ofBits .f32 0x358637BD#32)

section Body

variable (c : Dev nD) (i : grid0.Coords) (arg1 : Memref sig .tc .vmem S128x7x7x30 .f32) (harg1 : arg1.IsWhole)
  (arg2 : Memref sig .tc .vmem S128x7x7x30 .f32) (harg2 : arg2.IsWhole) (arg3 : Memref sig .tc .vmem S1x1 .f32) (harg3 : arg3.IsWhole)
  (arg4 : Memref sig .tc .vmem S1x1 .f32) (harg4 : arg4.IsWhole)

/-- Trip `k` of the loop adds, to the value it carries, the sum over the sixteen rows of chunk `k` of the two tiles. -/
theorem trip_eq (𝒱 : Variants) (bd : Option 𝒱.V) (X_arg1 : BufTy.Contents (Elt F) arg1.view.ty) (X_arg2 : BufTy.Contents (Elt F) arg2.view.ty)
    (k : Fin k0_t1_loop.trips) (acc : FVec F S1x1 .f32) :
    tripR_k0_t1 (F := F) 𝒱 c bd i arg1 harg1 arg2 harg2 arg3 harg3 arg4 harg4 X_arg1 X_arg2 k acc
      = k0_pay3 acc (chunkRows
          (View.readAt (Elt F) arg1.view (Rect.unit (s := S128x7x7x30) (k0_off1 k) S16x7x7x30.size (k0_off1_inb k)).toLoadRect X_arg1)
          (View.readAt (Elt F) arg2.view (Rect.unit (s := S128x7x7x30) (k0_off1 k) S16x7x7x30.size (k0_off1_inb k)).toLoadRect X_arg2)) := by
  unfold tripR_k0_t1 trip_k0_t1
  dsimp only
  sl_unfold_words
  rfl

/-- What the loop leaves: the value carried after all its trips, from the zero it starts at. -/
abbrev loopRes (x0 x1 : Vec F S128x7x7x30 .f32) : FVec F S1x1 .f32 :=
  st_k0_t1 Variants.none c none i arg1 harg1 arg2 harg2 arg3 harg3 arg4 harg4 (harg1.unread x0) (harg2.unread x1) k0_pay2
    (Scf.trips (0#32) (Scalar.addi 0#32 8#32) 1#32)

theorem sout_B (hc0 : ¬cond0_0 i) (hc1 : ¬cond0_1 i) (x0 x1 : Vec F S128x7x7x30 .f32) (xs0 : Vec F S1x1 .f32) :
    sout0_B_0 c i arg1 harg1 arg2 harg2 arg3 harg3 arg4 harg4 hc0 hc1 x0 x1 xs0
      = k0_pay4 (loopRes c i arg1 harg1 arg2 harg2 arg3 harg3 arg4 harg4 x0 x1) xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero (S := S1x1) hz]
  simp only [View.readAt_eq_ld, harg4.read_unread, View.ld_unit_zero (S := S1x1) hz]

theorem sout_C (hc0 : ¬cond0_0 i) (hc1 : cond0_1 i) (x0 x1 : Vec F S128x7x7x30 .f32) (xs0 : Vec F S1x1 .f32) :
    sout0_C_0 c i arg1 harg1 arg2 harg2 arg3 harg3 arg4 harg4 hc0 hc1 x0 x1 xs0
      = k0_pay4 (loopRes c i arg1 harg1 arg2 harg2 arg3 harg3 arg4 harg4 x0 x1) xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero (S := S1x1) hz]
  simp only [View.readAt_eq_ld, harg4.read_unread, View.ld_unit_zero (S := S1x1) hz]

theorem out_C (hc0 : ¬cond0_0 i) (hc1 : cond0_1 i) (x0 x1 : Vec F S128x7x7x30 .f32) (xs0 : Vec F S1x1 .f32) :
    out0_C_2 c i arg1 harg1 arg2 harg2 arg3 harg3 arg4 harg4 hc0 hc1 x0 x1 xs0
      = k0_pay4 (loopRes c i arg1 harg1 arg2 harg2 arg3 harg3 arg4 harg4 x0 x1) xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero (S := S1x1) hz, View.readCov_unit_zero (S := S1x1) _ hz]
  simp only [View.readAt_eq_ld, harg4.read_unread, View.ld_unit_zero (S := S1x1) hz]

theorem sout_A (hc0 : cond0_0 i) (hc1 : ¬cond0_1 i) (x0 x1 : Vec F S128x7x7x30 .f32) :
    sout0_A_0 c i arg1 harg1 arg2 harg2 arg3 harg3 arg4 harg4 hc0 hc1 x0 x1
      = k0_pay4 (loopRes c i arg1 harg1 arg2 harg2 arg3 harg3 arg4 harg4 x0 x1) k0_pay1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]

end Body

end Cert.KernelRun

end
-- ==== Proof.KernelSum.lean ====
/-
  The idealized kernel's result is the sum of the cell losses over all 32768 × 7 × 7 cells, taken tile by tile.
  On the extended reals: a chunk row's entry is the sum of its forty-nine cell losses; a trip of the loop adds the sixteen
  row sums of its chunk, so the loop leaves the total of a tile of 128 rows (eight chunks); the scratch accumulator after
  grid point `n` holds the total of the tiles of points `0 … n` (induction on the point); the last point copies it into the
  [1, 1] output block, which is written back once and is the whole result array; the host then views it as a scalar.  A tile's
  row `r` at point `t` is row `128 t + r` of the argument arrays, so the returned scalar is the sum over the 256 tiles, the 8
  chunks, the 16 rows and the 7 × 7 cells of the loss of the cell.
-/
import proofs.«133747_j1108101562907_2_alg».proof.Proof.KernelCell
import proofs.«133747_j1108101562907_2_alg».proof.Proof.KernelRun
import Idealize.ShloMosaic.Lib.ValueIdx
import Idealize.ShloMosaic.Lib.Pipeline.Value
import Idealize.ShloMosaic.PureOps.Ideal.Laws
import Idealize.ShloMosaic.Lib.Tactic

set_option maxRecDepth 16384

noncomputable section

namespace Cert.KernelSum

open Idealize.ShloMosaic Idealize.ShloMosaic.TcCoe Idealize.ShloMosaic.ValueIdx Idealize.SL.Sem
open Idealize.ShloMosaic.Pipeline (Dat)
open Cert.KernelIdeal Cert.KernelIdeal.Gen Cert.CellLoss Cert.KernelCell Cert.KernelRun

/-- The objectness test of a chunk, at a cell. -/
theorem pay5_apply (v19 : Vec Ideal S16x7x7x30 .f32) (b : Fin 16) (i j : Fin 7) :
    k0_pay5 (F := Ideal) v19 (ix3 b i j) = Ideal.cmp .oeq (v19 (ix4 b i j 0)) c1 := by
  unfold k0_pay5
  simp (disch := omega) only [cmpf_apply, broadcast_apply, chan_apply]
  rfl

/-- A chunk row's entry is the sum of the losses of the row's forty-nine cells. -/
theorem chunkRows_apply (v17 v19 : Vec Ideal S16x7x7x30 .f32) (b : Fin 16) :
    chunkRows (F := Ideal) v17 v19 (ix3 b 0 0)
      = ∑ i : Fin 7, ∑ j : Fin 7, cell (fun q => v17 (ix4 b i j q)) (fun q => v19 (ix4 b i j q)) := by
  unfold chunkRows
  refine pay33_apply v17 v19 b _ _ _ _ (fun i j => pay5_apply v19 b i j) (fun i j => ?_) (fun i j => pay27_apply v17 v19 b i j)
    (fun i j => pay30_apply v17 v19 b i j)
  refine (pay26_apply v17 v19 b i j _).trans ?_
  rw [pay14_apply]
  rfl

/-- One trip adds the sixteen row sums of its chunk to the value carried. -/
theorem pay3_apply (acc : FVec Ideal S1x1 .f32) (v265 : FVec Ideal S16x1x1 .f32) :
    k0_pay3 (F := Ideal) acc v265 (ix2 0 0) = acc (ix2 0 0) + ∑ b : Fin 16, v265 (ix3 b 0 0) := by
  unfold k0_pay3
  simp only [multiReduction, Ideal.reduceAdd_def, addf_apply, firstSum16_apply]

/-- Rows `16 k … 16 k + 15` of a tile, read through the loop's load. -/
theorem readChunk (arg1 : Memref sig .tc .vmem S128x7x7x30 .f32) (harg1 : arg1.IsWhole) (x0 : Vec Ideal S128x7x7x30 .f32)
    (k : Fin k0_t1_loop.trips) (b : Fin 16) (i j : Fin 7) (q : Fin 30) (hb : 16 * k.val + b.val < 128) :
    View.readAt (Elt Ideal) arg1.view (Rect.unit (s := S128x7x7x30) (k0_off1 k) S16x7x7x30.size (k0_off1_inb k)).toLoadRect (harg1.unread x0) (ix4 b i j q)
      = x0 (ix4 ⟨16 * k.val + b.val, hb⟩ i j q) := by
  rw [View.readAt_eq_ld, harg1.read_unread]
  show x0 _ = x0 _
  congr 1
  funext a
  apply Fin.ext
  show k0_off1 k a + 1 * (ix4 b i j q a).val = _
  rw [k0_off1_eq]
  match a with
  | ⟨0, _⟩ => show 16 * k.val + 1 * b.val = 16 * k.val + b.val; omega
  | ⟨1, _⟩ => show 0 + 1 * i.val = i.val; omega
  | ⟨2, _⟩ => show 0 + 1 * j.val = j.val; omega
  | ⟨3, _⟩ => show 0 + 1 * q.val = q.val; omega

theorem trips8 : k0_t1_loop.trips = 8 := by decide

/-- The sum of the losses of the cells of rows `16 k … 16 k + 15` of a tile of predictions `x0` and targets `x1`. -/
def chunkTotal (x0 x1 : Vec Ideal S128x7x7x30 .f32) (k : ℕ) : EReal :=
  if hk : k < 8 then
    ∑ b : Fin 16, ∑ i : Fin 7, ∑ j : Fin 7,
      cell (fun q => x0 (ix4 ⟨16 * k + b.val, by have := b.isLt; omega⟩ i j q))
        (fun q => x1 (ix4 ⟨16 * k + b.val, by have := b.isLt; omega⟩ i j q))
  else 0

section Loop

variable (c : Dev nD) (i : grid0.Coords) (arg1 : Memref sig .tc .vmem S128x7x7x30 .f32) (harg1 : arg1.IsWhole)
  (arg2 : Memref sig .tc .vmem S128x7x7x30 .f32) (harg2 : arg2.IsWhole) (arg3 : Memref sig .tc .vmem S1x1 .f32) (harg3 : arg3.IsWhole)
  (arg4 : Memref sig .tc .vmem S1x1 .f32) (harg4 : arg4.IsWhole) (x0 x1 : Vec Ideal S128x7x7x30 .f32)

/-- The value carried before trip `n`: the chunks before it, added up from the start value. -/
theorem st_apply (init : FVec Ideal S1x1 .f32) : ∀ n : ℕ, n ≤ 8 →
    st_k0_t1 (F := Ideal) Variants.none c none i arg1 harg1 arg2 harg2 arg3 harg3 arg4 harg4 (harg1.unread x0) (harg2.unread x1) init n (ix2 0 0)
      = init (ix2 0 0) + ∑ k ∈ Finset.range n, chunkTotal x0 x1 k
  | 0, _ => by simp [st_k0_t1_zero]
  | n + 1, hn => by
    have hn8 : n < 8 := by omega
    have hk : n < k0_t1_loop.trips := by rw [trips8]; exact hn8
    have e := st_k0_t1_succ (F := Ideal) Variants.none c none i arg1 harg1 arg2 harg2 arg3 harg3 arg4 harg4 (harg1.unread x0) (harg2.unread x1) init ⟨n, hk⟩
    rw [show n + 1 = (⟨n, hk⟩ : Fin k0_t1_loop.trips).val + 1 from rfl, e, trip_eq, pay3_apply, st_apply init n (by omega),
      Finset.sum_range_succ, add_assoc]
    congr 2
    unfold chunkTotal
    rw [dif_pos hn8]
    refine Finset.sum_congr rfl fun b _ => ?_
    rw [chunkRows_apply]
    refine Finset.sum_congr rfl fun i' _ => Finset.sum_congr rfl fun j' _ => ?_
    congr 1 <;> funext q <;> exact readChunk _ _ _ ⟨n, hk⟩ b i' j' q (by have := b.isLt; show 16 * n + b.val < 128; omega)

end Loop

/-- The sum of the losses of all the cells of a tile of 128 rows. -/
def tileTotal (x0 x1 : Vec Ideal S128x7x7x30 .f32) : EReal := ∑ k ∈ Finset.range 8, chunkTotal x0 x1 k

theorem zero_f32 : (FloatOps.ofBits (F := Ideal) .f32 0x00000000#32) = 0 := Ideal.ofBits_zero_f32

section Cases

variable (c : Dev nD) (i : grid0.Coords) (arg1 : Memref sig .tc .vmem S128x7x7x30 .f32) (harg1 : arg1.IsWhole)
  (arg2 : Memref sig .tc .vmem S128x7x7x30 .f32) (harg2 : arg2.IsWhole) (arg3 : Memref sig .tc .vmem S1x1 .f32) (harg3 : arg3.IsWhole)
  (arg4 : Memref sig .tc .vmem S1x1 .f32) (harg4 : arg4.IsWhole) (x0 x1 : Vec Ideal S128x7x7x30 .f32)

/-- The loop leaves the tile's total. -/
theorem loopRes_apply :
    loopRes (F := Ideal) c i arg1 harg1 arg2 harg2 arg3 harg3 arg4 harg4 x0 x1 (ix2 0 0) = tileTotal x0 x1 := by
  have h8 : Scf.trips (0#32) (Scalar.addi 0#32 8#32) 1#32 = 8 := trips8
  unfold loopRes
  rw [h8, st_apply c i arg1 harg1 arg2 harg2 arg3 harg3 arg4 harg4 x0 x1 k0_pay2 8 le_rfl]
  unfold k0_pay2 tileTotal
  rw [broadcast_apply]
  show FloatOps.ofBits (F := Ideal) .f32 0x00000000#32 + _ = _
  rw [zero_f32, zero_add]

/-- The scratch after a point: what it held plus the tile's total. -/
theorem pay4_apply (v5 : FVec Ideal S1x1 .f32) (v6 : Vec Ideal S1x1 .f32) :
    k0_pay4 (F := Ideal) v5 v6 (ix2 0 0) = v6 (ix2 0 0) + v5 (ix2 0 0) := by
  unfold k0_pay4
  rw [shapeCast_self, addf_apply]

theorem pay1_apply : k0_pay1 (F := Ideal) (ix2 0 0) = 0 := by
  unfold k0_pay1
  rw [shapeCast_self, broadcast_apply]
  exact zero_f32

end Cases

/-- A `[1, 1]` vector is its one entry. -/
theorem eq_of_apply00 {α : Type} (u v : S1x1.Idx → α) (h : u (ix2 0 0) = v (ix2 0 0)) : u = v := by
  funext y
  have e : y = ix2 0 0 := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
  rw [e, h]

section CaseValues

variable (c : Dev nD) (i : grid0.Coords) (arg1 : Memref sig .tc .vmem S128x7x7x30 .f32) (harg1 : arg1.IsWhole)
  (arg2 : Memref sig .tc .vmem S128x7x7x30 .f32) (harg2 : arg2.IsWhole) (arg3 : Memref sig .tc .vmem S1x1 .f32) (harg3 : arg3.IsWhole)
  (arg4 : Memref sig .tc .vmem S1x1 .f32) (harg4 : arg4.IsWhole) (x0 x1 : Vec Ideal S128x7x7x30 .f32) (xs0 : Vec Ideal S1x1 .f32)

/-- At the first point the scratch is reset and ends at the tile's total. -/
theorem sA_apply (hc0 : cond0_0 i) (hc1 : ¬cond0_1 i) :
    sout0_A_0 (F := Ideal) c i arg1 harg1 arg2 harg2 arg3 harg3 arg4 harg4 hc0 hc1 x0 x1 (ix2 0 0) = tileTotal x0 x1 := by
  rw [sout_A, pay4_apply, pay1_apply, zero_add, loopRes_apply]

/-- At a later point the scratch gains the tile's total. -/
theorem sB_apply (hc0 : ¬cond0_0 i) (hc1 : ¬cond0_1 i) :
    sout0_B_0 (F := Ideal) c i arg1 harg1 arg2 harg2 arg3 harg3 arg4 harg4 hc0 hc1 x0 x1 xs0 (ix2 0 0)
      = xs0 (ix2 0 0) + tileTotal x0 x1 := by
  rw [sout_B, pay4_apply, loopRes_apply]

theorem sC_apply (hc0 : ¬cond0_0 i) (hc1 : cond0_1 i) :
    sout0_C_0 (F := Ideal) c i arg1 harg1 arg2 harg2 arg3 harg3 arg4 harg4 hc0 hc1 x0 x1 xs0 (ix2 0 0)
      = xs0 (ix2 0 0) + tileTotal x0 x1 := by
  rw [sout_C, pay4_apply, loopRes_apply]

/-- At the last point the output block receives the scratch's final value. -/
theorem oC_apply (hc0 : ¬cond0_0 i) (hc1 : cond0_1 i) :
    out0_C_2 (F := Ideal) c i arg1 harg1 arg2 harg2 arg3 harg3 arg4 harg4 hc0 hc1 x0 x1 xs0 (ix2 0 0)
      = xs0 (ix2 0 0) + tileTotal x0 x1 := by
  rw [out_C, pay4_apply, loopRes_apply]

end CaseValues

section Points

variable (m : (ℓ : Loc nD τ sig) → Buf (Elt Ideal) ℓ) (c : Dev nD)

/-- The total of the tile that grid point `t` stages. -/
def pointTotal (t : ℕ) : EReal :=
  if h : t < cfg0.N then tileTotal (iblk m c 0 ⟨t, h⟩) (iblk m c 1 ⟨t, h⟩) else 0

theorem N256 : cfg0.N = 256 := N_0

theorem pointTotal_eq (t : Fin cfg0.N) : pointTotal m c t.val = tileTotal (iblk m c 0 t) (iblk m c 1 t) := by
  unfold pointTotal
  rw [dif_pos t.isLt]

/-- After point `n` the scratch holds the total of the tiles of points `0 … n`. -/
theorem scratch_apply : ∀ (n : ℕ) (hn : n < cfg0.N),
    (outsAt0 m c n hn).2 (ix2 0 0) = ∑ t ∈ Finset.range (n + 1), pointTotal m c t
  | 0, hn => by
    have h0 : (⟨0, hn⟩ : Fin cfg0.N).val % 256 = 0 := Nat.zero_mod _
    have h1 : ¬(⟨0, hn⟩ : Fin cfg0.N).val % 256 = 255 := by show ¬ (0 % 256 = 255); decide
    have e := outsAt0_A m c ⟨0, hn⟩ h0 h1
    refine (congrArg (fun p : Vec Ideal S1x1 .f32 × Vec Ideal S1x1 .f32 => p.2 (ix2 0 0)) e).trans ?_
    refine (sA_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      scM0_0 (Memref.isWhole_whole _) (iblk m c 0 ⟨0, hn⟩) (iblk m c 1 ⟨0, hn⟩)
      ((hcond0_0 ⟨0, hn⟩).mpr h0) (fun h => h1 ((hcond0_1 ⟨0, hn⟩).mp h))).trans ?_
    rw [Finset.sum_range_one]
    exact (pointTotal_eq m c ⟨0, hn⟩).symm
  | n + 1, hn => by
    have hN := N256
    have h0 : ¬(⟨n + 1, hn⟩ : Fin cfg0.N).val % 256 = 0 := by show ¬ ((n + 1) % 256 = 0); omega
    have ih := scratch_apply n (by omega)
    rw [Finset.sum_range_succ, ← ih]
    by_cases h1 : (⟨n + 1, hn⟩ : Fin cfg0.N).val % 256 = 255
    · have e := outsAt0_C m c ⟨n + 1, hn⟩ h0 h1
      refine (congrArg (fun p : Vec Ideal S1x1 .f32 × Vec Ideal S1x1 .f32 => p.2 (ix2 0 0)) e).trans ?_
      refine (sC_apply c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) scM0_0 (Memref.isWhole_whole _) (iblk m c 0 ⟨n + 1, hn⟩) (iblk m c 1 ⟨n + 1, hn⟩)
        (outsAt0 m c n (by omega)).2 (fun h => h0 ((hcond0_0 ⟨n + 1, hn⟩).mp h)) ((hcond0_1 ⟨n + 1, hn⟩).mpr h1)).trans ?_
      rw [pointTotal_eq m c ⟨n + 1, hn⟩]
    · have e := outsAt0_B m c ⟨n + 1, hn⟩ h0 h1
      refine (congrArg (fun p : Vec Ideal S1x1 .f32 × Vec Ideal S1x1 .f32 => p.2 (ix2 0 0)) e).trans ?_
      refine (sB_apply c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) scM0_0 (Memref.isWhole_whole _) (iblk m c 0 ⟨n + 1, hn⟩) (iblk m c 1 ⟨n + 1, hn⟩)
        (outsAt0 m c n (by omega)).2 (fun h => h0 ((hcond0_0 ⟨n + 1, hn⟩).mp h)) (fun h => h1 ((hcond0_1 ⟨n + 1, hn⟩).mp h))).trans ?_
      rw [pointTotal_eq m c ⟨n + 1, hn⟩]

end Points

section Final

variable (m : (ℓ : Loc nD τ sig) → Buf (Elt Ideal) ℓ) (c : Dev nD)

/-- The grand total: the sum over the 256 tiles. -/
def total : EReal := ∑ s ∈ Finset.range (255 + 1), pointTotal m c s

theorem t255_lt : 255 < cfg0.N := by rw [N256]; decide

/-- At the last point the output block receives what the scratch then holds: the total of the tiles up to it. -/
theorem outC_apply (t : Fin cfg0.N) (h0 : ¬t.val % 256 = 0) (h1 : t.val % 256 = 255) :
    (outsAt0 m c t.val t.isLt).1 (ix2 0 0) = ∑ s ∈ Finset.range (t.val + 1), pointTotal m c s := by
  have e := outsAt0_C m c t h0 h1
  have e1 : (outsAt0 m c t.val t.isLt).1 = out0_C_2 c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2 := congrArg Prod.fst e
  have ht : t.val - 1 + 1 = t.val := by omega
  rw [e1, oC_apply, scratch_apply m c (t.val - 1) (Nat.lt_of_le_of_lt (Nat.sub_le _ _) t.isLt), ht, ← pointTotal_eq m c t, Finset.sum_range_succ]

/-- At the last point the output block receives the grand total. -/
theorem out_last : (outsAt0 m c (⟨255, t255_lt⟩ : Fin cfg0.N).val (⟨255, t255_lt⟩ : Fin cfg0.N).isLt).1 (ix2 0 0) = total m c :=
  outC_apply m c ⟨255, t255_lt⟩ (by show ¬ (255 % 256 = 0); decide) (by show 255 % 256 = 255; decide)

/-- The result array's contents: its one entry is the grand total. -/
abbrev result : Buf (Elt Ideal) ((c : Thread nD τ).loc main_v0) := fun _ => total m c

/-- The one write-back, at the last point, writes the grand total. -/
theorem flushed_eq (t : Fin cfg0.N) (hf : (cfg0.win 2).flush t = true) :
    (dats m 0 c).flushed 2 t = ((cfg0.win 2).blk t).view.read (Elt Ideal) (result m c) := by
  have hN := N256
  have h255 : t.val = 255 := by have := (flush0_2 t).mp hf; have := t.isLt; omega
  obtain rfl : t = ⟨255, t255_lt⟩ := Fin.ext h255
  show (cfg0.win 2).cut (grid0.coords ⟨255, t255_lt⟩) ((dats m 0 c).after 2 ⟨255, t255_lt⟩) = _
  rw [after0_2]
  have e : (outsAt0 m c (⟨255, t255_lt⟩ : Fin cfg0.N).val (⟨255, t255_lt⟩ : Fin cfg0.N).isLt).1 = result m c := eq_of_apply00 _ _ (out_last m c)
  have hz' : (fun a => win0_2.index ⟨255, t255_lt⟩ a * main_v0.ty.shape.size a) = fun _ => 0 := funext fun a => by fin_cases a <;> decide
  refine Eq.trans ?_ (Memref.read_access_unit_zero (Elt Ideal) main_v0 hz' (fun a => by rw [congrFun hz' a]; simp) (result m c)).symm
  exact e

theorem final : (dats m 0 c).arrAt 2 cfg0.N = result m c :=
  (dats m 0 c).arrAt_eq_of_cover 2 (result m c) (flushed_eq m c) fun i =>
    ⟨⟨255, t255_lt⟩, (flush0_2 ⟨255, t255_lt⟩).mpr (by show 255 % 256 = 255; decide), by
      show i ∈ ((View.whole main_v0).slice (win0_2.rect ⟨255, t255_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨255, t255_lt⟩ 0 * win0_2.size 0 ≤ (i 0 : Nat) ∧ (i 0 : Nat) < win0_2.index ⟨255, t255_lt⟩ 0 * win0_2.size 0 + win0_2.xsize (grid0.coords ⟨255, t255_lt⟩) 0
        rw [show win0_2.index ⟨255, t255_lt⟩ 0 * win0_2.size 0 = 0 from by decide +kernel, show win0_2.xsize (grid0.coords ⟨255, t255_lt⟩) 0 = 1 from by decide +kernel]; omega
      | ⟨1, _⟩ =>
        show win0_2.index ⟨255, t255_lt⟩ 1 * win0_2.size 1 ≤ (i 1 : Nat) ∧ (i 1 : Nat) < win0_2.index ⟨255, t255_lt⟩ 1 * win0_2.size 1 + win0_2.xsize (grid0.coords ⟨255, t255_lt⟩) 1
        rw [show win0_2.index ⟨255, t255_lt⟩ 1 * win0_2.size 1 = 0 from by decide +kernel, show win0_2.xsize (grid0.coords ⟨255, t255_lt⟩) 1 = 1 from by decide +kernel]; omega⟩

theorem main_v1_rest : main_v1 ∈ Pipeline.restRefs sig (cfgs 0).spec :=
  Pipeline.mem_restRefs_of main_v1 rfl (fun w => by fin_cases w <;> decide)

/-- The scalar the program returns. -/
abbrev out : Buf (Elt Ideal) ((c : Thread nD τ).loc main_v1) := fun _ => total m c

theorem tail_eq : Pipeline.afterTail₀ cfgs (dats m) 0 (V0 m) [hostOps1] c main_v1 = out m c := by
  unfold Pipeline.afterTail₀
  show StableHlo.after hostOps1 _ (Proc.devRef .tc main_v1) = _
  after_results
  funext y
  have hw : Pipeline.withArrays (cfgs 0).spec c (V0 m c) (fun w => (dats m 0 c).arrAt w (cfgs 0).N) (Proc.devRef .tc main_v0) = result m c :=
    (Pipeline.withArrays_arr spec0 launch0.win.arr_inj c _ _ 2).trans (final m c)
  show shapeCast S_ (Pipeline.withArrays (cfgs 0).spec c (V0 m c) (fun w => (dats m 0 c).arrAt w (cfgs 0).N) (Proc.devRef .tc main_v0)) shapeCasts_S1x1_S_ y = total m c
  rw [hw]
  rfl

/-- The kernel's run, read: the returned scalar is the grand total, the arguments are unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨((h c).2 main_v1 main_v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main (F := Ideal) m ρ)

end Final

section Blocks

variable (m : (ℓ : Loc nD τ sig) → Buf (Elt Ideal) ℓ) (c : Dev nD)

theorem idx_facts0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

theorem idx_facts1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- Row `r` of the tile of predictions that point `t` stages is row `128 t + r` of the predictions. -/
theorem iblk0_apply (t : Fin cfg0.N) (r : Fin 128) (i j : Fin 7) (q : Fin 30) (hr : 128 * t.val + r.val < 32768) :
    (iblk m c 0 t : Vec Ideal S128x7x7x30 .f32) (ix4 r i j q)
      = m ((c : Thread nD τ).loc main_arg0) (ix4 ⟨128 * t.val + r.val, hr⟩ i j q) := by
  have hi := idx_facts0 t
  unfold iblk
  rw [View.read_apply]
  show V m c main_arg0 _ = m (c.tc.loc main_arg0) _
  rw [V_main_arg0]
  congr 1
  funext a
  apply Fin.ext
  match a with
  | ⟨0, _⟩ => show win0_0.index t 0 * 128 + 1 * r.val = 128 * t.val + r.val; rw [hi.1]; omega
  | ⟨1, _⟩ => show win0_0.index t 1 * 7 + 1 * i.val = i.val; rw [hi.2.1]; omega
  | ⟨2, _⟩ => show win0_0.index t 2 * 7 + 1 * j.val = j.val; rw [hi.2.2.1]; omega
  | ⟨3, _⟩ => show win0_0.index t 3 * 30 + 1 * q.val = q.val; rw [hi.2.2.2]; omega

/-- The same for the targets. -/
theorem iblk1_apply (t : Fin cfg0.N) (r : Fin 128) (i j : Fin 7) (q : Fin 30) (hr : 128 * t.val + r.val < 32768) :
    (iblk m c 1 t : Vec Ideal S128x7x7x30 .f32) (ix4 r i j q)
      = m ((c : Thread nD τ).loc main_arg1) (ix4 ⟨128 * t.val + r.val, hr⟩ i j q) := by
  have hi := idx_facts1 t
  unfold iblk
  rw [View.read_apply]
  show V m c main_arg1 _ = m (c.tc.loc main_arg1) _
  rw [V_main_arg1]
  congr 1
  funext a
  apply Fin.ext
  match a with
  | ⟨0, _⟩ => show win0_1.index t 0 * 128 + 1 * r.val = 128 * t.val + r.val; rw [hi.1]; omega
  | ⟨1, _⟩ => show win0_1.index t 1 * 7 + 1 * i.val = i.val; rw [hi.2.1]; omega
  | ⟨2, _⟩ => show win0_1.index t 2 * 7 + 1 * j.val = j.val; rw [hi.2.2.1]; omega
  | ⟨3, _⟩ => show win0_1.index t 3 * 30 + 1 * q.val = q.val; rw [hi.2.2.2]; omega

/-- The loss of the cell `(B, i, j)` of the argument arrays. -/
def cellAt (B : Fin 32768) (i j : Fin 7) : EReal :=
  cell (fun q => m ((c : Thread nD τ).loc main_arg0) (ix4 B i j q)) (fun q => m ((c : Thread nD τ).loc main_arg1) (ix4 B i j q))

/-- The grand total, tile by tile, chunk by chunk, row by row, over the argument arrays. -/
theorem total_eq : total m c
    = ∑ t : Fin 256, ∑ k : Fin 8, ∑ b : Fin 16, ∑ i : Fin 7, ∑ j : Fin 7,
        cellAt m c ⟨128 * t.val + 16 * k.val + b.val, by have := t.isLt; have := k.isLt; have := b.isLt; omega⟩ i j := by
  have hN := N256
  unfold total
  rw [show (255 + 1 : ℕ) = 256 from rfl, ← Fin.sum_univ_eq_sum_range (fun t => pointTotal m c t) 256]
  refine Finset.sum_congr rfl fun t _ => ?_
  have ht : t.val < cfg0.N := by rw [hN]; exact t.isLt
  unfold pointTotal
  rw [dif_pos ht]
  unfold tileTotal
  rw [← Fin.sum_univ_eq_sum_range (fun k => chunkTotal (iblk m c 0 ⟨t.val, ht⟩) (iblk m c 1 ⟨t.val, ht⟩) k) 8]
  refine Finset.sum_congr rfl fun k _ => ?_
  unfold chunkTotal
  rw [dif_pos k.isLt]
  refine Finset.sum_congr rfl fun b _ => Finset.sum_congr rfl fun i _ => Finset.sum_congr rfl fun j _ => ?_
  unfold cellAt
  have hb : 16 * k.val + b.val < 128 := by have := k.isLt; have := b.isLt; omega
  have hr : 128 * t.val + (16 * k.val + b.val) < 32768 := by have := t.isLt; omega
  have hB : (⟨128 * t.val + (16 * k.val + b.val), hr⟩ : Fin 32768) = ⟨128 * t.val + 16 * k.val + b.val, by omega⟩ := Fin.ext (by show 128 * t.val + (16 * k.val + b.val) = 128 * t.val + 16 * k.val + b.val; omega)
  congr 1 <;> funext q
  · rw [iblk0_apply m c ⟨t.val, ht⟩ ⟨16 * k.val + b.val, hb⟩ i j q hr, hB]
  · rw [iblk1_apply m c ⟨t.val, ht⟩ ⟨16 * k.val + b.val, hb⟩ i j q hr, hB]

end Blocks

end Cert.KernelSum

end
-- ==== Proof.RefCell.lean ====
/-
  The reference, read at one grid cell. Each operation of the reference program up to its per-cell value, read at the cell
  (B, a, b), is the corresponding piece of the cell loss `Cert.CellLoss` of the cell's thirty predicted and thirty target
  channel values: the channel reads, the ends of the boxes' intervals, the overlaps along the two axes, the two intersections
  over union, the choice of the responsible box, the box terms, the confidence errors, the class error and the objectness. So
  the per-cell value is `Cert.CellLoss.cell` of the cell (`ref_cell`), and the reference's result is zero plus the sum of the
  cell losses over all 32768 × 7 × 7 cells (`ref_total`).

  Two things differ in spelling from `Cert.CellLoss` and nothing else: the clip at zero is the maximum with zero on the left
  (`max` commutes), and a sum over the last axis starts from the initial value zero (`0 + s = s`).
-/
import proofs.«133747_j1108101562907_2_alg».proof.Proof.RefRead
import proofs.«133747_j1108101562907_2_alg».proof.Proof.CellLoss
import Idealize.ShloMosaic.Lib.ValueIdx
import Idealize.ShloMosaic.PureOps.Ideal.Laws

noncomputable section

open scoped BigOperators

namespace Cert.RefCell

open Cert Cert.ReferenceIdeal Cert.ReferenceIdeal.Read Idealize.ShloMosaic Idealize.ShloMosaic.ValueIdx

/-- The two argument arrays' type: 32768 × 7 × 7 cells of 30 channels each, as extended reals. -/
abbrev Arr := (⟨S32768x7x7x30, .f32⟩ : BufTy).Contents (Elt Ideal)

/-- The thirty channel values of the cell (B, a, b) of an array. -/
abbrev chan (x : Arr) (B : Fin 32768) (a b : Fin 7) : Fin 30 → EReal := fun q => x (ix4 B a b q)

/-- An index of an argument array is the cell (B, a, b) at channel c as soon as its four coordinates are those numbers. -/
theorem idx_eq (j : S32768x7x7x30.Idx) (B : Fin 32768) (a b : Fin 7) (c : Fin 30)
    (h0 : (j 0).val = B.val) (h1 : (j 1).val = a.val) (h2 : (j 2).val = b.val) (h3 : (j 3).val = c.val) :
    j = ix4 B a b c := by
  funext e
  match e with
  | ⟨0, _⟩ => exact Fin.ext h0
  | ⟨1, _⟩ => exact Fin.ext h1
  | ⟨2, _⟩ => exact Fin.ext h2
  | ⟨3, _⟩ => exact Fin.ext h3

/-- The row-major position (B·7 + a)·7 + b of the cell (B, a, b) among the 32768 × 7 × 7 cells gives back the three
    coordinates: what a reshape [32768,7,7,1] → [32768,7,7] computes when it is read at (B, a, b). -/
theorem pos0 (B : Fin 32768) (a b : Fin 7) : ((B.val * 7 + a.val) * 7 + b.val) / 49 = B.val := by
  have := a.isLt; have := b.isLt; omega
theorem pos1 (B : Fin 32768) (a b : Fin 7) : ((B.val * 7 + a.val) * 7 + b.val) / 7 % 7 = a.val := by
  have := a.isLt; have := b.isLt; omega
theorem pos2 (B : Fin 32768) (a b : Fin 7) : ((B.val * 7 + a.val) * 7 + b.val) / 1 % 7 = b.val := by
  have := a.isLt; have := b.isLt; omega

variable (x0 x1 : Arr) (B : Fin 32768) (a b : Fin 7)

/-! Channel reads and the ends of the intervals. -/
/-! The first box (channels 1–4): the ends of the predicted and of the target interval along each axis. -/
theorem v7_at : val_main_v7 (F := Ideal) x0 (ix3 B a b) = chan x0 B a b 1 := by
  rw [val_main_v7_apply, val_main_v6_apply, val_main_v4_apply]
  exact congrArg x0 (idx_eq _ B a b 1 (pos0 B a b) (pos1 B a b) (pos2 B a b) rfl)
theorem v9_at : val_main_v9 (F := Ideal) x0 (ix3 B a b) = chan x0 B a b 3 := by
  rw [val_main_v9_apply, val_main_v8_apply, val_main_v4_apply]
  exact congrArg x0 (idx_eq _ B a b 3 (pos0 B a b) (pos1 B a b) (pos2 B a b) rfl)
theorem v12_at : val_main_v12 (F := Ideal) x0 (ix3 B a b) = CellLoss.lo (chan x0 B a b 1) (chan x0 B a b 3) := by
  rw [val_main_v12_apply, val_main_v11_apply, val_main_v10_apply, val_main_cst_0_apply, v7_at, v9_at]
  rfl
theorem v14_at : val_main_v14 (F := Ideal) x0 (ix3 B a b) = chan x0 B a b 2 := by
  rw [val_main_v14_apply, val_main_v13_apply, val_main_v4_apply]
  exact congrArg x0 (idx_eq _ B a b 2 (pos0 B a b) (pos1 B a b) (pos2 B a b) rfl)
theorem v16_at : val_main_v16 (F := Ideal) x0 (ix3 B a b) = chan x0 B a b 4 := by
  rw [val_main_v16_apply, val_main_v15_apply, val_main_v4_apply]
  exact congrArg x0 (idx_eq _ B a b 4 (pos0 B a b) (pos1 B a b) (pos2 B a b) rfl)
theorem v19_at : val_main_v19 (F := Ideal) x0 (ix3 B a b) = CellLoss.lo (chan x0 B a b 2) (chan x0 B a b 4) := by
  rw [val_main_v19_apply, val_main_v18_apply, val_main_v17_apply, val_main_cst_1_apply, v14_at, v16_at]
  rfl
theorem v21_at : val_main_v21 (F := Ideal) x0 (ix3 B a b) = chan x0 B a b 1 := by
  rw [val_main_v21_apply, val_main_v20_apply, val_main_v4_apply]
  exact congrArg x0 (idx_eq _ B a b 1 (pos0 B a b) (pos1 B a b) (pos2 B a b) rfl)
theorem v23_at : val_main_v23 (F := Ideal) x0 (ix3 B a b) = chan x0 B a b 3 := by
  rw [val_main_v23_apply, val_main_v22_apply, val_main_v4_apply]
  exact congrArg x0 (idx_eq _ B a b 3 (pos0 B a b) (pos1 B a b) (pos2 B a b) rfl)
theorem v26_at : val_main_v26 (F := Ideal) x0 (ix3 B a b) = CellLoss.hi (chan x0 B a b 1) (chan x0 B a b 3) := by
  rw [val_main_v26_apply, val_main_v25_apply, val_main_v24_apply, val_main_cst_2_apply, v21_at, v23_at]
  rfl
theorem v28_at : val_main_v28 (F := Ideal) x0 (ix3 B a b) = chan x0 B a b 2 := by
  rw [val_main_v28_apply, val_main_v27_apply, val_main_v4_apply]
  exact congrArg x0 (idx_eq _ B a b 2 (pos0 B a b) (pos1 B a b) (pos2 B a b) rfl)
theorem v30_at : val_main_v30 (F := Ideal) x0 (ix3 B a b) = chan x0 B a b 4 := by
  rw [val_main_v30_apply, val_main_v29_apply, val_main_v4_apply]
  exact congrArg x0 (idx_eq _ B a b 4 (pos0 B a b) (pos1 B a b) (pos2 B a b) rfl)
theorem v33_at : val_main_v33 (F := Ideal) x0 (ix3 B a b) = CellLoss.hi (chan x0 B a b 2) (chan x0 B a b 4) := by
  rw [val_main_v33_apply, val_main_v32_apply, val_main_v31_apply, val_main_cst_3_apply, v28_at, v30_at]
  rfl
theorem v35_at : val_main_v35 (F := Ideal) x1 (ix3 B a b) = chan x1 B a b 1 := by
  rw [val_main_v35_apply, val_main_v34_apply, val_main_v5_apply]
  exact congrArg x1 (idx_eq _ B a b 1 (pos0 B a b) (pos1 B a b) (pos2 B a b) rfl)
theorem v37_at : val_main_v37 (F := Ideal) x1 (ix3 B a b) = chan x1 B a b 3 := by
  rw [val_main_v37_apply, val_main_v36_apply, val_main_v5_apply]
  exact congrArg x1 (idx_eq _ B a b 3 (pos0 B a b) (pos1 B a b) (pos2 B a b) rfl)
theorem v40_at : val_main_v40 (F := Ideal) x1 (ix3 B a b) = CellLoss.lo (chan x1 B a b 1) (chan x1 B a b 3) := by
  rw [val_main_v40_apply, val_main_v39_apply, val_main_v38_apply, val_main_cst_4_apply, v35_at, v37_at]
  rfl
theorem v42_at : val_main_v42 (F := Ideal) x1 (ix3 B a b) = chan x1 B a b 2 := by
  rw [val_main_v42_apply, val_main_v41_apply, val_main_v5_apply]
  exact congrArg x1 (idx_eq _ B a b 2 (pos0 B a b) (pos1 B a b) (pos2 B a b) rfl)
theorem v44_at : val_main_v44 (F := Ideal) x1 (ix3 B a b) = chan x1 B a b 4 := by
  rw [val_main_v44_apply, val_main_v43_apply, val_main_v5_apply]
  exact congrArg x1 (idx_eq _ B a b 4 (pos0 B a b) (pos1 B a b) (pos2 B a b) rfl)
theorem v47_at : val_main_v47 (F := Ideal) x1 (ix3 B a b) = CellLoss.lo (chan x1 B a b 2) (chan x1 B a b 4) := by
  rw [val_main_v47_apply, val_main_v46_apply, val_main_v45_apply, val_main_cst_5_apply, v42_at, v44_at]
  rfl
theorem v49_at : val_main_v49 (F := Ideal) x1 (ix3 B a b) = chan x1 B a b 1 := by
  rw [val_main_v49_apply, val_main_v48_apply, val_main_v5_apply]
  exact congrArg x1 (idx_eq _ B a b 1 (pos0 B a b) (pos1 B a b) (pos2 B a b) rfl)
theorem v51_at : val_main_v51 (F := Ideal) x1 (ix3 B a b) = chan x1 B a b 3 := by
  rw [val_main_v51_apply, val_main_v50_apply, val_main_v5_apply]
  exact congrArg x1 (idx_eq _ B a b 3 (pos0 B a b) (pos1 B a b) (pos2 B a b) rfl)
theorem v54_at : val_main_v54 (F := Ideal) x1 (ix3 B a b) = CellLoss.hi (chan x1 B a b 1) (chan x1 B a b 3) := by
  rw [val_main_v54_apply, val_main_v53_apply, val_main_v52_apply, val_main_cst_6_apply, v49_at, v51_at]
  rfl
theorem v56_at : val_main_v56 (F := Ideal) x1 (ix3 B a b) = chan x1 B a b 2 := by
  rw [val_main_v56_apply, val_main_v55_apply, val_main_v5_apply]
  exact congrArg x1 (idx_eq _ B a b 2 (pos0 B a b) (pos1 B a b) (pos2 B a b) rfl)
theorem v58_at : val_main_v58 (F := Ideal) x1 (ix3 B a b) = chan x1 B a b 4 := by
  rw [val_main_v58_apply, val_main_v57_apply, val_main_v5_apply]
  exact congrArg x1 (idx_eq _ B a b 4 (pos0 B a b) (pos1 B a b) (pos2 B a b) rfl)
theorem v61_at : val_main_v61 (F := Ideal) x1 (ix3 B a b) = CellLoss.hi (chan x1 B a b 2) (chan x1 B a b 4) := by
  rw [val_main_v61_apply, val_main_v60_apply, val_main_v59_apply, val_main_cst_7_apply, v56_at, v58_at]
  rfl

/-! The second box (channels 6–9), likewise. -/
theorem v85_at : val_main_v85 (F := Ideal) x0 (ix3 B a b) = chan x0 B a b 6 := by
  rw [val_main_v85_apply, val_main_v84_apply, val_main_v82_apply]
  exact congrArg x0 (idx_eq _ B a b 6 (pos0 B a b) (pos1 B a b) (pos2 B a b) rfl)
theorem v87_at : val_main_v87 (F := Ideal) x0 (ix3 B a b) = chan x0 B a b 8 := by
  rw [val_main_v87_apply, val_main_v86_apply, val_main_v82_apply]
  exact congrArg x0 (idx_eq _ B a b 8 (pos0 B a b) (pos1 B a b) (pos2 B a b) rfl)
theorem v90_at : val_main_v90 (F := Ideal) x0 (ix3 B a b) = CellLoss.lo (chan x0 B a b 6) (chan x0 B a b 8) := by
  rw [val_main_v90_apply, val_main_v89_apply, val_main_v88_apply, val_main_cst_11_apply, v85_at, v87_at]
  rfl
theorem v92_at : val_main_v92 (F := Ideal) x0 (ix3 B a b) = chan x0 B a b 7 := by
  rw [val_main_v92_apply, val_main_v91_apply, val_main_v82_apply]
  exact congrArg x0 (idx_eq _ B a b 7 (pos0 B a b) (pos1 B a b) (pos2 B a b) rfl)
theorem v94_at : val_main_v94 (F := Ideal) x0 (ix3 B a b) = chan x0 B a b 9 := by
  rw [val_main_v94_apply, val_main_v93_apply, val_main_v82_apply]
  exact congrArg x0 (idx_eq _ B a b 9 (pos0 B a b) (pos1 B a b) (pos2 B a b) rfl)
theorem v97_at : val_main_v97 (F := Ideal) x0 (ix3 B a b) = CellLoss.lo (chan x0 B a b 7) (chan x0 B a b 9) := by
  rw [val_main_v97_apply, val_main_v96_apply, val_main_v95_apply, val_main_cst_12_apply, v92_at, v94_at]
  rfl
theorem v99_at : val_main_v99 (F := Ideal) x0 (ix3 B a b) = chan x0 B a b 6 := by
  rw [val_main_v99_apply, val_main_v98_apply, val_main_v82_apply]
  exact congrArg x0 (idx_eq _ B a b 6 (pos0 B a b) (pos1 B a b) (pos2 B a b) rfl)
theorem v101_at : val_main_v101 (F := Ideal) x0 (ix3 B a b) = chan x0 B a b 8 := by
  rw [val_main_v101_apply, val_main_v100_apply, val_main_v82_apply]
  exact congrArg x0 (idx_eq _ B a b 8 (pos0 B a b) (pos1 B a b) (pos2 B a b) rfl)
theorem v104_at : val_main_v104 (F := Ideal) x0 (ix3 B a b) = CellLoss.hi (chan x0 B a b 6) (chan x0 B a b 8) := by
  rw [val_main_v104_apply, val_main_v103_apply, val_main_v102_apply, val_main_cst_13_apply, v99_at, v101_at]
  rfl
theorem v106_at : val_main_v106 (F := Ideal) x0 (ix3 B a b) = chan x0 B a b 7 := by
  rw [val_main_v106_apply, val_main_v105_apply, val_main_v82_apply]
  exact congrArg x0 (idx_eq _ B a b 7 (pos0 B a b) (pos1 B a b) (pos2 B a b) rfl)
theorem v108_at : val_main_v108 (F := Ideal) x0 (ix3 B a b) = chan x0 B a b 9 := by
  rw [val_main_v108_apply, val_main_v107_apply, val_main_v82_apply]
  exact congrArg x0 (idx_eq _ B a b 9 (pos0 B a b) (pos1 B a b) (pos2 B a b) rfl)
theorem v111_at : val_main_v111 (F := Ideal) x0 (ix3 B a b) = CellLoss.hi (chan x0 B a b 7) (chan x0 B a b 9) := by
  rw [val_main_v111_apply, val_main_v110_apply, val_main_v109_apply, val_main_cst_14_apply, v106_at, v108_at]
  rfl
theorem v113_at : val_main_v113 (F := Ideal) x1 (ix3 B a b) = chan x1 B a b 6 := by
  rw [val_main_v113_apply, val_main_v112_apply, val_main_v83_apply]
  exact congrArg x1 (idx_eq _ B a b 6 (pos0 B a b) (pos1 B a b) (pos2 B a b) rfl)
theorem v115_at : val_main_v115 (F := Ideal) x1 (ix3 B a b) = chan x1 B a b 8 := by
  rw [val_main_v115_apply, val_main_v114_apply, val_main_v83_apply]
  exact congrArg x1 (idx_eq _ B a b 8 (pos0 B a b) (pos1 B a b) (pos2 B a b) rfl)
theorem v118_at : val_main_v118 (F := Ideal) x1 (ix3 B a b) = CellLoss.lo (chan x1 B a b 6) (chan x1 B a b 8) := by
  rw [val_main_v118_apply, val_main_v117_apply, val_main_v116_apply, val_main_cst_15_apply, v113_at, v115_at]
  rfl
theorem v120_at : val_main_v120 (F := Ideal) x1 (ix3 B a b) = chan x1 B a b 7 := by
  rw [val_main_v120_apply, val_main_v119_apply, val_main_v83_apply]
  exact congrArg x1 (idx_eq _ B a b 7 (pos0 B a b) (pos1 B a b) (pos2 B a b) rfl)
theorem v122_at : val_main_v122 (F := Ideal) x1 (ix3 B a b) = chan x1 B a b 9 := by
  rw [val_main_v122_apply, val_main_v121_apply, val_main_v83_apply]
  exact congrArg x1 (idx_eq _ B a b 9 (pos0 B a b) (pos1 B a b) (pos2 B a b) rfl)
theorem v125_at : val_main_v125 (F := Ideal) x1 (ix3 B a b) = CellLoss.lo (chan x1 B a b 7) (chan x1 B a b 9) := by
  rw [val_main_v125_apply, val_main_v124_apply, val_main_v123_apply, val_main_cst_16_apply, v120_at, v122_at]
  rfl
theorem v127_at : val_main_v127 (F := Ideal) x1 (ix3 B a b) = chan x1 B a b 6 := by
  rw [val_main_v127_apply, val_main_v126_apply, val_main_v83_apply]
  exact congrArg x1 (idx_eq _ B a b 6 (pos0 B a b) (pos1 B a b) (pos2 B a b) rfl)
theorem v129_at : val_main_v129 (F := Ideal) x1 (ix3 B a b) = chan x1 B a b 8 := by
  rw [val_main_v129_apply, val_main_v128_apply, val_main_v83_apply]
  exact congrArg x1 (idx_eq _ B a b 8 (pos0 B a b) (pos1 B a b) (pos2 B a b) rfl)
theorem v132_at : val_main_v132 (F := Ideal) x1 (ix3 B a b) = CellLoss.hi (chan x1 B a b 6) (chan x1 B a b 8) := by
  rw [val_main_v132_apply, val_main_v131_apply, val_main_v130_apply, val_main_cst_17_apply, v127_at, v129_at]
  rfl
theorem v134_at : val_main_v134 (F := Ideal) x1 (ix3 B a b) = chan x1 B a b 7 := by
  rw [val_main_v134_apply, val_main_v133_apply, val_main_v83_apply]
  exact congrArg x1 (idx_eq _ B a b 7 (pos0 B a b) (pos1 B a b) (pos2 B a b) rfl)
theorem v136_at : val_main_v136 (F := Ideal) x1 (ix3 B a b) = chan x1 B a b 9 := by
  rw [val_main_v136_apply, val_main_v135_apply, val_main_v83_apply]
  exact congrArg x1 (idx_eq _ B a b 9 (pos0 B a b) (pos1 B a b) (pos2 B a b) rfl)
theorem v139_at : val_main_v139 (F := Ideal) x1 (ix3 B a b) = CellLoss.hi (chan x1 B a b 7) (chan x1 B a b 9) := by
  rw [val_main_v139_apply, val_main_v138_apply, val_main_v137_apply, val_main_cst_18_apply, v134_at, v136_at]
  rfl

/-! The overlaps along the two axes. The clip at zero prints as the maximum of zero and the difference, the operands in the
    other order than `CellLoss.overlap`: `max` commutes. -/
theorem v65_at : val_main_v65 (F := Ideal) x0 x1 (ix3 B a b)
    = CellLoss.overlap (chan x0 B a b 1) (chan x0 B a b 3) (chan x1 B a b 1) (chan x1 B a b 3) := by
  rw [val_main_v65_apply, val_main_call0_v1_apply, val_main_call0_v0_apply, val_main_cst_8_apply,
    val_main_v64_apply, val_main_v62_apply, val_main_v63_apply, v26_at, v54_at, v12_at, v40_at]
  exact max_comm _ _
theorem v69_at : val_main_v69 (F := Ideal) x0 x1 (ix3 B a b)
    = CellLoss.overlap (chan x0 B a b 2) (chan x0 B a b 4) (chan x1 B a b 2) (chan x1 B a b 4) := by
  rw [val_main_v69_apply, val_main_call1_v1_apply, val_main_call1_v0_apply, val_main_cst_9_apply,
    val_main_v68_apply, val_main_v66_apply, val_main_v67_apply, v33_at, v61_at, v19_at, v47_at]
  exact max_comm _ _
theorem v143_at : val_main_v143 (F := Ideal) x0 x1 (ix3 B a b)
    = CellLoss.overlap (chan x0 B a b 6) (chan x0 B a b 8) (chan x1 B a b 6) (chan x1 B a b 8) := by
  rw [val_main_v143_apply, val_main_call2_v1_apply, val_main_call2_v0_apply, val_main_cst_19_apply,
    val_main_v142_apply, val_main_v140_apply, val_main_v141_apply, v104_at, v132_at, v90_at, v118_at]
  exact max_comm _ _
theorem v147_at : val_main_v147 (F := Ideal) x0 x1 (ix3 B a b)
    = CellLoss.overlap (chan x0 B a b 7) (chan x0 B a b 9) (chan x1 B a b 7) (chan x1 B a b 9) := by
  rw [val_main_v147_apply, val_main_call3_v1_apply, val_main_call3_v0_apply, val_main_cst_20_apply,
    val_main_v146_apply, val_main_v144_apply, val_main_v145_apply, v111_at, v139_at, v97_at, v125_at]
  exact max_comm _ _

/-! Intersection over union of the predicted and the target box, for the first and for the second box. -/
theorem v81_at : val_main_v81 (F := Ideal) x0 x1 (ix3 B a b) = CellLoss.iouAt (chan x0 B a b) (chan x1 B a b) 1 (by omega) := by
  rw [val_main_v81_apply, val_main_v80_apply, val_main_v79_apply, val_main_v78_apply, val_main_v77_apply, val_main_v73_apply, val_main_v71_apply, val_main_v72_apply, val_main_v76_apply, val_main_v74_apply, val_main_v75_apply, val_main_v70_apply,
    val_main_cst_10_apply, v65_at, v69_at, v26_at, v12_at, v33_at, v19_at, v54_at, v40_at, v61_at, v47_at]
  rfl
theorem v159_at : val_main_v159 (F := Ideal) x0 x1 (ix3 B a b) = CellLoss.iouAt (chan x0 B a b) (chan x1 B a b) 6 (by omega) := by
  rw [val_main_v159_apply, val_main_v158_apply, val_main_v157_apply, val_main_v156_apply, val_main_v155_apply, val_main_v151_apply, val_main_v149_apply, val_main_v150_apply, val_main_v154_apply, val_main_v152_apply, val_main_v153_apply, val_main_v148_apply,
    val_main_cst_21_apply, v143_at, v147_at, v104_at, v90_at, v111_at, v97_at, v132_at, v118_at, v139_at, v125_at]
  rfl

/-- The first box is the responsible one. -/
theorem v160_at : val_main_v160 (F := Ideal) x0 x1 (ix3 B a b) = CellLoss.firstResp (chan x0 B a b) (chan x1 B a b) := by
  rw [val_main_v160_apply, v81_at, v159_at]
  rfl

/-! The box terms. A sum over the last axis is the initial value, zero, plus the sum over the axis's two coordinates. -/
/-- The squared distance of the centres of the box at channel 1: the sum over its two centre channels. -/
theorem v167_at : val_main_v167 (F := Ideal) x0 x1 (ix3 B a b) = CellLoss.centreErr (chan x0 B a b) (chan x1 B a b) 1 (by omega) := by
  rw [val_main_v167_apply, val_main_cst_22_apply, Ideal.ofBits_def, Ideal.ofBits_zero_f32, zero_add]
  unfold CellLoss.centreErr
  refine Finset.sum_congr rfl fun k _ => ?_
  rw [val_main_v166_apply, val_main_v165_apply, val_main_v163_apply, val_main_v164_apply, val_main_v161_apply, val_main_v162_apply,
    idx_eq (idx_main_v161 (idx_main_v163 (idx_main_v167 (ix3 B a b) k))) B a b ⟨1 + k.val, by omega⟩ rfl rfl rfl rfl,
    idx_eq (idx_main_v162 (idx_main_v164 (idx_main_v167 (ix3 B a b) k))) B a b ⟨1 + k.val, by omega⟩ rfl rfl rfl rfl]
  rfl
/-- The squared distance of the square roots of the ε-shifted extents of the box at channel 1. -/
theorem v178_at : val_main_v178 (F := Ideal) x0 x1 (ix3 B a b) = CellLoss.extentErr (chan x0 B a b) (chan x1 B a b) 1 (by omega) := by
  rw [val_main_v178_apply, val_main_cst_25_apply, Ideal.ofBits_def, Ideal.ofBits_zero_f32, zero_add]
  unfold CellLoss.extentErr
  refine Finset.sum_congr rfl fun k _ => ?_
  rw [val_main_v177_apply, val_main_v176_apply, val_main_v171_apply, val_main_v175_apply, val_main_v170_apply, val_main_v174_apply,
    val_main_v169_apply, val_main_v173_apply, val_main_cst_23_apply, val_main_cst_24_apply,
    val_main_v168_apply, val_main_v172_apply, val_main_v161_apply, val_main_v162_apply,
    idx_eq (idx_main_v161 (idx_main_v168 (idx_main_v178 (ix3 B a b) k))) B a b ⟨1 + 2 + k.val, by omega⟩ rfl rfl rfl (by show 1 + (2 + k.val) = 1 + 2 + k.val; omega),
    idx_eq (idx_main_v162 (idx_main_v172 (idx_main_v178 (ix3 B a b) k))) B a b ⟨1 + 2 + k.val, by omega⟩ rfl rfl rfl (by show 1 + (2 + k.val) = 1 + 2 + k.val; omega)]
  rfl
theorem v179_at : val_main_v179 (F := Ideal) x0 x1 (ix3 B a b) = CellLoss.boxErr (chan x0 B a b) (chan x1 B a b) 1 (by omega) := by
  rw [val_main_v179_apply, v167_at, v178_at]
  rfl
/-- The squared distance of the centres of the box at channel 6: the sum over its two centre channels. -/
theorem v186_at : val_main_v186 (F := Ideal) x0 x1 (ix3 B a b) = CellLoss.centreErr (chan x0 B a b) (chan x1 B a b) 6 (by omega) := by
  rw [val_main_v186_apply, val_main_cst_26_apply, Ideal.ofBits_def, Ideal.ofBits_zero_f32, zero_add]
  unfold CellLoss.centreErr
  refine Finset.sum_congr rfl fun k _ => ?_
  rw [val_main_v185_apply, val_main_v184_apply, val_main_v182_apply, val_main_v183_apply, val_main_v180_apply, val_main_v181_apply,
    idx_eq (idx_main_v180 (idx_main_v182 (idx_main_v186 (ix3 B a b) k))) B a b ⟨6 + k.val, by omega⟩ rfl rfl rfl rfl,
    idx_eq (idx_main_v181 (idx_main_v183 (idx_main_v186 (ix3 B a b) k))) B a b ⟨6 + k.val, by omega⟩ rfl rfl rfl rfl]
  rfl
/-- The squared distance of the square roots of the ε-shifted extents of the box at channel 6. -/
theorem v197_at : val_main_v197 (F := Ideal) x0 x1 (ix3 B a b) = CellLoss.extentErr (chan x0 B a b) (chan x1 B a b) 6 (by omega) := by
  rw [val_main_v197_apply, val_main_cst_29_apply, Ideal.ofBits_def, Ideal.ofBits_zero_f32, zero_add]
  unfold CellLoss.extentErr
  refine Finset.sum_congr rfl fun k _ => ?_
  rw [val_main_v196_apply, val_main_v195_apply, val_main_v190_apply, val_main_v194_apply, val_main_v189_apply, val_main_v193_apply,
    val_main_v188_apply, val_main_v192_apply, val_main_cst_27_apply, val_main_cst_28_apply,
    val_main_v187_apply, val_main_v191_apply, val_main_v180_apply, val_main_v181_apply,
    idx_eq (idx_main_v180 (idx_main_v187 (idx_main_v197 (ix3 B a b) k))) B a b ⟨6 + 2 + k.val, by omega⟩ rfl rfl rfl (by show 6 + (2 + k.val) = 6 + 2 + k.val; omega),
    idx_eq (idx_main_v181 (idx_main_v191 (idx_main_v197 (ix3 B a b) k))) B a b ⟨6 + 2 + k.val, by omega⟩ rfl rfl rfl (by show 6 + (2 + k.val) = 6 + 2 + k.val; omega)]
  rfl
theorem v198_at : val_main_v198 (F := Ideal) x0 x1 (ix3 B a b) = CellLoss.boxErr (chan x0 B a b) (chan x1 B a b) 6 (by omega) := by
  rw [val_main_v198_apply, v186_at, v197_at]
  rfl

/-- Five times the responsible box's term. -/
theorem v201_at : val_main_v201 (F := Ideal) x0 x1 (ix3 B a b)
    = CellLoss.c5 * Scalar.select (CellLoss.firstResp (chan x0 B a b) (chan x1 B a b))
        (CellLoss.boxErr (chan x0 B a b) (chan x1 B a b) 1 (by omega)) (CellLoss.boxErr (chan x0 B a b) (chan x1 B a b) 6 (by omega)) := by
  rw [val_main_v201_apply, val_main_v200_apply, val_main_cst_30_apply, val_main_v199_apply, v160_at, v179_at, v198_at]
  rfl

/-! The confidence errors. -/
theorem v203_at : val_main_v203 (F := Ideal) x0 (ix3 B a b) = chan x0 B a b 0 := by
  rw [val_main_v203_apply, val_main_v202_apply]
  exact congrArg x0 (idx_eq _ B a b 0 (pos0 B a b) (pos1 B a b) (pos2 B a b) rfl)
theorem v205_at : val_main_v205 (F := Ideal) x1 (ix3 B a b) = chan x1 B a b 0 := by
  rw [val_main_v205_apply, val_main_v204_apply]
  exact congrArg x1 (idx_eq _ B a b 0 (pos0 B a b) (pos1 B a b) (pos2 B a b) rfl)
theorem v209_at : val_main_v209 (F := Ideal) x0 (ix3 B a b) = chan x0 B a b 5 := by
  rw [val_main_v209_apply, val_main_v208_apply]
  exact congrArg x0 (idx_eq _ B a b 5 (pos0 B a b) (pos1 B a b) (pos2 B a b) rfl)
theorem v211_at : val_main_v211 (F := Ideal) x1 (ix3 B a b) = chan x1 B a b 5 := by
  rw [val_main_v211_apply, val_main_v210_apply]
  exact congrArg x1 (idx_eq _ B a b 5 (pos0 B a b) (pos1 B a b) (pos2 B a b) rfl)
theorem v207_at : val_main_v207 (F := Ideal) x0 x1 (ix3 B a b) = CellLoss.conf0 (chan x0 B a b) (chan x1 B a b) := by
  rw [val_main_v207_apply, val_main_v206_apply, v203_at, v205_at]
  rfl
theorem v213_at : val_main_v213 (F := Ideal) x0 x1 (ix3 B a b) = CellLoss.conf5 (chan x0 B a b) (chan x1 B a b) := by
  rw [val_main_v213_apply, val_main_v212_apply, v209_at, v211_at]
  rfl
/-- The responsible box's confidence error in full, the other's at one half. -/
theorem v220_at : val_main_v220 (F := Ideal) x0 x1 (ix3 B a b)
    = Scalar.select (CellLoss.firstResp (chan x0 B a b) (chan x1 B a b))
        (CellLoss.conf0 (chan x0 B a b) (chan x1 B a b) + CellLoss.chalf * CellLoss.conf5 (chan x0 B a b) (chan x1 B a b))
        (CellLoss.conf5 (chan x0 B a b) (chan x1 B a b) + CellLoss.chalf * CellLoss.conf0 (chan x0 B a b) (chan x1 B a b)) := by
  rw [val_main_v220_apply, v160_at, val_main_v216_apply, val_main_v215_apply, val_main_v214_apply, val_main_cst_31_apply,
    val_main_v219_apply, val_main_v218_apply, val_main_v217_apply, val_main_cst_32_apply, v207_at, v213_at]
  rfl
/-- One half of both confidence errors. -/
theorem v223_at : val_main_v223 (F := Ideal) x0 x1 (ix3 B a b)
    = CellLoss.chalf * (CellLoss.conf0 (chan x0 B a b) (chan x1 B a b) + CellLoss.conf5 (chan x0 B a b) (chan x1 B a b)) := by
  rw [val_main_v223_apply, val_main_v222_apply, val_main_cst_33_apply, val_main_v221_apply, v207_at, v213_at]
  rfl

/-- The squared class error: the sum over the twenty class channels. -/
theorem v228_at : val_main_v228 (F := Ideal) x0 x1 (ix3 B a b) = CellLoss.clsErr (chan x0 B a b) (chan x1 B a b) := by
  rw [val_main_v228_apply, val_main_cst_34_apply, Ideal.ofBits_def, Ideal.ofBits_zero_f32, zero_add]
  unfold CellLoss.clsErr
  refine Finset.sum_congr rfl fun k _ => ?_
  rw [val_main_v227_apply, val_main_v226_apply, val_main_v224_apply, val_main_v225_apply,
    idx_eq (idx_main_v224 (idx_main_v228 (ix3 B a b) k)) B a b ⟨10 + k.val, by omega⟩ rfl rfl rfl rfl,
    idx_eq (idx_main_v225 (idx_main_v228 (ix3 B a b) k)) B a b ⟨10 + k.val, by omega⟩ rfl rfl rfl rfl]
  rfl

/-! The target's objectness as the number 1 or 0. -/
theorem v1_at : val_main_v1 (F := Ideal) x1 (ix3 B a b) = chan x1 B a b 0 := by
  rw [val_main_v1_apply, val_main_v0_apply]
  exact congrArg x1 (idx_eq _ B a b 0 (pos0 B a b) (pos1 B a b) (pos2 B a b) rfl)
theorem v229_at : val_main_v229 (F := Ideal) x1 (ix3 B a b) = CellLoss.objf (chan x1 B a b) := by
  rw [val_main_v229_apply, val_main_v3_apply, val_main_v2_apply, val_main_cst_apply, v1_at]
  rfl

/-- THE REFERENCE'S PER-CELL VALUE, read at the cell (B, a, b), is the cell loss of that cell's thirty predicted and thirty target
    channel values. -/
theorem ref_cell (x0 x1 : (⟨S32768x7x7x30, .f32⟩ : BufTy).Contents (Elt Ideal)) (B : Fin 32768) (a b : Fin 7) :
    Cert.ReferenceIdeal.Read.val_main_v236 (F := Ideal) x0 x1 (ix3 B a b)
      = Cert.CellLoss.cell (fun q => x0 (ix4 B a b q)) (fun q => x1 (ix4 B a b q)) := by
  rw [val_main_v236_apply, val_main_v232_apply, val_main_v231_apply, val_main_v230_apply, val_main_v235_apply, val_main_v234_apply,
    val_main_v233_apply, val_main_cst_35_apply, v229_at, v201_at, v220_at, v228_at, v223_at]
  rfl

/-- THE REFERENCE'S RESULT is zero plus the sum of the cell losses over all 32768 × 7 × 7 cells. -/
theorem ref_total (x0 x1 : (⟨S32768x7x7x30, .f32⟩ : BufTy).Contents (Elt Ideal)) (i : S_.Idx) :
    Cert.ReferenceIdeal.Read.val_main_v237 (F := Ideal) x0 x1 i
      = Cert.CellLoss.c0 + ∑ j : S32768x7x7.Idx,
          Cert.CellLoss.cell (fun q => x0 (ix4 (j 0) (j 1) (j 2) q)) (fun q => x1 (ix4 (j 0) (j 1) (j 2) q)) := by
  rw [val_main_v237_apply, val_main_cst_36_apply, Ideal.ofBits_def]
  refine congrArg (_ + ·) (Finset.sum_congr rfl fun j _ => ?_)
  exact (congrArg (val_main_v236 (F := Ideal) x0 x1) (eq_ix3 j)).trans (ref_cell x0 x1 (j 0) (j 1) (j 2))

end Cert.RefCell

end
-- ==== Proof.LibTileSum.lean ====
/-
  TILED SUMS. Two summation laws over an additive commutative monoid, with no program text involved.

  (1) `sum_cells`: a family `f` of values indexed by a row below 32768 and two coordinates below 7, summed tile by
      tile — 256 outer blocks of 128 rows, each block cut into 8 groups of 16 rows, so that the row of block `t`, group `k`
      and position `b` is `128 * t + 16 * k + b` — is the sum of `f` over the whole rank-3 index set `[32768, 7, 7]` at once.
      The proof has two steps. A rank-3 index set is the product of its three coordinate ranges (`idxEquiv3`), so a sum over
      it is the triple sum over the coordinates (`sum_idx3`). And the map `(t, k, b) ↦ 128 * t + 16 * k + b` is a bijection
      from `Fin 256 × Fin 8 × Fin 16` onto `Fin 32768` (`rowEquiv`: its inverse reads off the quotient by 128, the quotient
      of the remainder by 16, and the remainder modulo 16), so the sum over the rows is re-indexed through it.

  (2) `fold_eq_sum`: a sequence `acc` that starts at `z` and grows by `acc (k + 1) = acc k + g k` for the first `n` steps
      has `acc n = z + ∑ k < n, g k`; `fold_eq_sum_fin` is the same statement with the sum taken over `Fin n`.
-/
import Mathlib.Algebra.BigOperators.Fin
import Idealize.ShloMosaic.Lib.ValueIdx

open scoped BigOperators

namespace Cert.TileSum

open Idealize.ShloMosaic Idealize.ShloMosaic.ValueIdx

/-! ## A rank-3 index set as the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The row axis: 256 blocks of 8 groups of 16 rows -/

/-- The row `128 * t + 16 * k + b` of block `t`, group `k`, position `b` is below `32768 = 256 * 128`. -/
theorem row_lt (t : Fin 256) (k : Fin 8) (b : Fin 16) : 128 * t.val + 16 * k.val + b.val < 32768 := by
  have := t.isLt; have := k.isLt; have := b.isLt; omega

/-- `(t, k, b) ↦ 128 * t + 16 * k + b` is a bijection from the triples (block, group, position) onto the rows: a row `r`
    comes from the block `r / 128`, the group `r % 128 / 16` and the position `r % 16`, and from no other triple. -/
def rowEquiv : Fin 256 × Fin 8 × Fin 16 ≃ Fin 32768 where
  toFun p := ⟨128 * p.1.val + 16 * p.2.1.val + p.2.2.val, row_lt p.1 p.2.1 p.2.2⟩
  invFun r := (⟨r.val / 128, by have := r.isLt; omega⟩, ⟨r.val % 128 / 16, by omega⟩, ⟨r.val % 16, by omega⟩)
  left_inv p := by
    obtain ⟨⟨t, ht⟩, ⟨k, hk⟩, ⟨b, hb⟩⟩ := p
    simp only [Prod.mk.injEq, Fin.mk.injEq]
    refine ⟨?_, ?_, ?_⟩ <;> omega
  right_inv r := by
    obtain ⟨r, hr⟩ := r
    simp only [Fin.mk.injEq]
    omega

/-- A sum over the rows is the sum over the blocks of the sums over the groups of the sums over the positions. -/
theorem sum_rows {M : Type*} [AddCommMonoid M] (G : Fin 32768 → M) :
    ∑ r : Fin 32768, G r
      = ∑ t : Fin 256, ∑ k : Fin 8, ∑ b : Fin 16, G ⟨128 * t.val + 16 * k.val + b.val, row_lt t k b⟩ := by
  rw [← Equiv.sum_comp rowEquiv G, Fintype.sum_prod_type]
  refine Finset.sum_congr rfl fun t _ => ?_
  rw [Fintype.sum_prod_type]
  rfl

/-- THE TILED SUM IS THE WHOLE SUM: summing `f` block by block, group by group, row by row and then over the two inner
    coordinates visits every cell of the index set `[32768, 7, 7]` exactly once. -/
theorem sum_cells {M : Type*} [AddCommMonoid M] (f : Fin 32768 → Fin 7 → Fin 7 → M) :
    (∑ t : Fin 256, ∑ k : Fin 8, ∑ b : Fin 16, ∑ i : Fin 7, ∑ j : Fin 7,
        f ⟨128 * t.val + 16 * k.val + b.val, by omega⟩ i j)
      = ∑ x : (⟨3, ![32768, 7, 7]⟩ : Idealize.ShloMosaic.Shape).Idx, f (x 0) (x 1) (x 2) := by
  rw [sum_idx3 (fun x : (⟨3, ![32768, 7, 7]⟩ : Shape).Idx => f (x 0) (x 1) (x 2))]
  exact (sum_rows (fun r => ∑ i : Fin 7, ∑ j : Fin 7, f r i j)).symm

/-! ## A left-accumulated recursion as a finite sum -/

/-- A sequence that starts at `z` and adds `g k` at step `k`, for the first `n` steps, has reached `z` plus the sum of
    `g` over `k < n`: induction on `n`, peeling the last term of the sum. -/
theorem fold_eq_sum {M : Type*} [AddCommMonoid M] (n : ℕ) (g : ℕ → M) (acc : ℕ → M) (z : M) (h0 : acc 0 = z)
    (hs : ∀ k, k < n → acc (k + 1) = acc k + g k) : acc n = z + ∑ k ∈ Finset.range n, g k := by
  induction n with
  | zero => rw [Finset.range_zero, Finset.sum_empty, add_zero, h0]
  | succ m ih =>
    rw [hs m (Nat.lt_succ_self m), ih (fun k hk => hs k (Nat.lt_succ_of_lt hk)), Finset.sum_range_succ, add_assoc]

/-- The same with the sum taken over `Fin n`. -/
theorem fold_eq_sum_fin {M : Type*} [AddCommMonoid M] (n : ℕ) (g : ℕ → M) (acc : ℕ → M) (z : M) (h0 : acc 0 = z)
    (hs : ∀ k, k < n → acc (k + 1) = acc k + g k) : acc n = z + ∑ k : Fin n, g k.val := by
  rw [fold_eq_sum n g acc z h0 hs, Fin.sum_univ_eq_sum_range]

end Cert.TileSum
-- ==== Proof.Equal.lean ====
/-
  The two results are one number.  The reference sums the cell loss over the whole index set [32768, 7, 7] at once, from
  an initial value zero; the idealized kernel sums it tile by tile (256 tiles of 8 chunks of 16 rows of 7 × 7 cells).  On the
  extended reals addition is commutative and associative with no exception, so the two sums agree: the rows
  `128 t + 16 k + b` enumerate the 32768 rows exactly once (`TileSum.sum_cells`).  No finiteness of the inputs is used.
-/
import proofs.«133747_j1108101562907_2_alg».proof.Proof.KernelSum
import proofs.«133747_j1108101562907_2_alg».proof.Proof.RefCell
import proofs.«133747_j1108101562907_2_alg».proof.Proof.LibTileSum

noncomputable section

namespace Cert.Equal

open Idealize.ShloMosaic Idealize.ShloMosaic.TcCoe Idealize.ShloMosaic.ValueIdx Idealize.SL.Sem

/-- The reference's last stage, read at the kernel's argument arrays, is the scalar the idealized kernel returns. -/
theorem result_eq (m : (ℓ : Loc Cert.KernelIdeal.nD Cert.KernelIdeal.τ Cert.KernelIdeal.sig) → Buf (Elt Ideal) ℓ)
    (c : Dev Cert.KernelIdeal.nD) (y : Cert.ReferenceIdeal.S_.Idx) :
    Cert.ReferenceIdeal.Read.val_main_v237 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) y
      = Cert.KernelSum.out m c y := by
  rw [Cert.RefCell.ref_total]
  show Ideal.ofBits .f32 0x00000000#32 + _ = Cert.KernelSum.total m c
  rw [Ideal.ofBits_zero_f32, zero_add, Cert.KernelSum.total_eq]
  exact (Cert.TileSum.sum_cells (fun B i j => Cert.KernelSum.cellAt m c B i j)).symm

end Cert.Equal

end
-- ==== Proof.lean ====
/-
  A detection loss summed over 32768 × 7 × 7 grid cells: a kernel that streams the two [32768, 7, 7, 30] arrays through tiles of
  128 rows, reduces each tile chunk by chunk in a loop and accumulates the tiles' totals across the grid, against the plain
  sum of the per-cell loss over all cells.  Read on the extended reals both programs return the sum over all cells of
  `CellLoss.cell` of the cell's thirty predicted and thirty target channels:

    * `KernelCell`, `KernelRun`, `KernelSum`: the idealized kernel's returned scalar is that sum taken tile by tile;
    * `RefRead`, `RefRun`, `RefCell`: the reference's result is that sum taken over the whole index set at once;
    * `LibTileSum`, `Equal`: the two orders of summation give one number (addition of extended reals is commutative and
      associative, so no finiteness of the inputs is needed).

  The three frames: the two kernels' are the generated frame certificates; the reference's is its run with the result
  dropped.  The idealization rewrote no operation, so `preserves` is trivial.
-/
import proofs.«133747_j1108101562907_2_alg».proof.Defs
import proofs.«133747_j1108101562907_2_alg».proof.Proof.Gen.Kernel
import proofs.«133747_j1108101562907_2_alg».proof.Proof.Gen.Kernel.Skeleton
import proofs.«133747_j1108101562907_2_alg».proof.Proof.Gen.Kernel.Loops
import proofs.«133747_j1108101562907_2_alg».proof.Proof.Gen.Kernel.Launch
import proofs.«133747_j1108101562907_2_alg».proof.Proof.Gen.Kernel.Points
import proofs.«133747_j1108101562907_2_alg».proof.Proof.Gen.Kernel.Frame
import proofs.«133747_j1108101562907_2_alg».proof.Proof.Gen.KernelIdeal
import proofs.«133747_j1108101562907_2_alg».proof.Proof.Gen.KernelIdeal.Skeleton
import proofs.«133747_j1108101562907_2_alg».proof.Proof.Gen.KernelIdeal.Loops
import proofs.«133747_j1108101562907_2_alg».proof.Proof.Gen.KernelIdeal.Launch
import proofs.«133747_j1108101562907_2_alg».proof.Proof.Gen.KernelIdeal.Points
import proofs.«133747_j1108101562907_2_alg».proof.Proof.Gen.KernelIdeal.Frame
import proofs.«133747_j1108101562907_2_alg».proof.Proof.Gen.ReferenceIdeal
import proofs.«133747_j1108101562907_2_alg».proof.Proof.Gen.Pre_finite_inputs
import proofs.«133747_j1108101562907_2_alg».proof.Proof.RefRun
import proofs.«133747_j1108101562907_2_alg».proof.Proof.RefRead
import proofs.«133747_j1108101562907_2_alg».proof.Proof.Equal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arrays both idealized programs run, and both end with the sum of the cell losses. -/
theorem algebraic : Cert.algebraic_KernelIdeal_ReferenceIdeal := by
  intro m ρ m' ρ' _ hagree
  refine ⟨fun c => Cert.KernelSum.out m c, Cert.KernelSum.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext y
  exact Cert.Equal.result_eq m c y

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
